-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 71
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128, .f32⟩
  | .hbm, ⟨68, _⟩ => ⟨S1x1, .f32⟩
  | .hbm, ⟨69, _⟩ => ⟨S50000x1, .f32⟩
  | .hbm, ⟨70, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S128x1, .f32⟩
  | .local _ .vmem, ⟨32, _⟩ => ⟨S1x1, .f32⟩
  | .local _ .vmem, ⟨33, _⟩ => ⟨S5000x1, .f32⟩
  | .local _ .vmem, ⟨34, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S50000x1.size a
  hwx2_8 : ∀ i : grid2.Coords, EltTy.bits .f32 = 32 ∨ (Rect.block (s := S50000x1) S5000x1.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S50000x1, .f32⟩
  | .hbm, ⟨117, _⟩ => ⟨S1x1, .f32⟩
  | .hbm, ⟨118, _⟩ => ⟨S50000x1, .f32⟩
  | .hbm, ⟨119, _⟩ => ⟨S50000x1, .f32⟩
  | .hbm, ⟨120, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The run of the kernel program with its result named.

  The program is seven segments: a stretch of host operations, a launch, a stretch, a launch, a stretch, a launch, and
  the final reshape. The buffers' contents at the segment boundaries are a fold from the launch memory; every weakly
  fair execution terminates, nothing faulting, with every unscoped buffer at the last boundary's contents. Read at the
  result buffer this names the result; read at the arguments it returns them unchanged.
-/
import proofs.«165756_j85126251807613_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_result : θ_run defs (onTc (τ := τ) (main (F := F))) ⟨m, fun _ => 0, ρ⟩ (fun r => ∀ c : Dev nD,
      r.2.mem ((c.tc : Thread nD τ).loc main_v46) = W7 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v46 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.RunValue

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«165756_j85126251807613_2_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«165756_j85126251807613_2_alg».proof.Proof.LibMatmulRows
import proofs.«165756_j85126251807613_2_alg».proof.Proof.LibBiasRows
import proofs.«165756_j85126251807613_2_alg».proof.Proof.LibLayout
import proofs.«165756_j85126251807613_2_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«165756_j85126251807613_2_alg».proof.Proof.LibMatmulRows
import proofs.«165756_j85126251807613_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«165756_j85126251807613_2_alg».proof.Proof.LibMatmulRows
import proofs.«165756_j85126251807613_2_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibMeanLayers.lean ====
/-
  GENERAL LEMMAS: the mean step of a mean-aggregating graph layer and a one-column classifier after such a layer, on
  extended reals; nothing here mentions a program and every extent is arbitrary.

  For a matrix s of summed neighbour features (R rows, K columns) and a count dg p per row, the mean matrix is
      meanOf s dg (p, k) = s(p, k) / max (dg p) 1
  with the exact division of extended reals and the single-precision word of 1. With the pre-activation
      preAt a x Wl b Wr (p, q) = (sum_k a(p, k) * Wl(k, q) + sum_k x(p, k) * Wr(k, q)) + b(q)
  the classifier score of row p against a one-column matrix wc and a scalar bc is
      scoreAt (p) = (sum_j preAt (p, j) * wc(j, 0)) + bc.

  Proved: row p of the mean, of the pre-activation of the mean and of the score depends only on row p of s and x and on
  dg p (so a block of consecutive rows computes that block of rows of the whole result); and the matrix unit's
  spellings read at an entry — the count column compared with 1, laid along the lanes and divided into s; two
  products into zero accumulators, added, plus a ONE-ROW bias block laid along the rows; a product of the
  pre-activations with a one-column matrix into zero plus a one-by-one block laid along the rows. No entry needs to be
  finite: every step is a congruence or the definition of a product as a sum.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«165756_j85126251807613_2_alg».proof.Proof.LibMatmulRows
import proofs.«165756_j85126251807613_2_alg».proof.Proof.LibLayout
import proofs.«165756_j85126251807613_2_alg».proof.Proof.LibSageLayers
import proofs.«165756_j85126251807613_2_alg».proof.Proof.LibRowBias

noncomputable section

namespace Cert.MeanLayers

open Idealize.ShloMosaic Idealize.ShloMosaic.ValueIdx Cert.Sage Cert.LibRowBias
open scoped BigOperators

/-- The single-precision word of 1, as an extended real. -/
abbrev oneW : EReal := Ideal.ofBits .f32 0x3F800000#32

/-- The mean matrix: s(p, k) divided by the larger of the row's count and 1. -/
def meanOf {R K : ℕ} (s : Mat R K) (dg : Fin R → EReal) : Mat R K :=
  fun i => Ideal.div (s i) (max (dg (i 0)) oneW)

theorem meanOf_apply {R K : ℕ} (s : Mat R K) (dg : Fin R → EReal) (p : Fin R) (k : Fin K) :
    meanOf s dg (ix2 p k) = Ideal.div (s (ix2 p k)) (max (dg p) oneW) := rfl

/-- Row p of the mean depends only on row p of s and on the count of row p. -/
theorem meanOf_row {R R' K : ℕ} (s : Mat R K) (s' : Mat R' K) (dg : Fin R → EReal) (dg' : Fin R' → EReal)
    (p : Fin R) (p' : Fin R') (hs : ∀ k : Fin K, s (ix2 p k) = s' (ix2 p' k)) (hd : dg p = dg' p') (k : Fin K) :
    meanOf s dg (ix2 p k) = meanOf s' dg' (ix2 p' k) := by
  rw [meanOf_apply, meanOf_apply, hs k, hd]

/-- The classifier score of row p: the row of pre-activations against the one column wc, plus bc. -/
def scoreAt {R K N : ℕ} (a x : Mat R K) (Wl : Mat K N) (b : Vc N) (Wr : Mat K N) (wc : Mat N 1) (bc : EReal)
    (p : Fin R) : EReal :=
  (∑ j : Fin N, preAt a x Wl b Wr p j * wc (ix2 j (0 : Fin 1))) + bc

/-- The scores as a column. -/
def scoreCol {R K N : ℕ} (a x : Mat R K) (Wl : Mat K N) (b : Vc N) (Wr : Mat K N) (wc : Mat N 1) (bc : EReal) :
    Mat R 1 := fun i => scoreAt a x Wl b Wr wc bc (i 0)

/-- The scores as a vector. -/
def scoreVec {R K N : ℕ} (a x : Mat R K) (Wl : Mat K N) (b : Vc N) (Wr : Mat K N) (wc : Mat N 1) (bc : EReal) :
    Vc R := fun i => scoreAt a x Wl b Wr wc bc (i 0)

theorem scoreCol_apply {R K N : ℕ} (a x : Mat R K) (Wl : Mat K N) (b : Vc N) (Wr : Mat K N) (wc : Mat N 1) (bc : EReal)
    (p : Fin R) (u : Fin 1) : scoreCol a x Wl b Wr wc bc (ix2 p u) = scoreAt a x Wl b Wr wc bc p := rfl

theorem scoreVec_apply {R K N : ℕ} (a x : Mat R K) (Wl : Mat K N) (b : Vc N) (Wr : Mat K N) (wc : Mat N 1) (bc : EReal)
    (p : Fin R) : scoreVec a x Wl b Wr wc bc (ix1 p) = scoreAt a x Wl b Wr wc bc p := rfl

/-- The score of row p depends only on rows p of a and x. -/
theorem scoreAt_row {R R' K N : ℕ} (a x : Mat R K) (a' x' : Mat R' K) (Wl : Mat K N) (b : Vc N) (Wr : Mat K N)
    (wc : Mat N 1) (bc : EReal) (p : Fin R) (p' : Fin R')
    (ha : ∀ k : Fin K, a (ix2 p k) = a' (ix2 p' k)) (hx : ∀ k : Fin K, x (ix2 p k) = x' (ix2 p' k)) :
    scoreAt a x Wl b Wr wc bc p = scoreAt a' x' Wl b Wr wc bc p' := by
  unfold scoreAt
  rw [Finset.sum_congr rfl fun j _ => by rw [preAt_congr a x a' x' Wl b Wr p p' ha hx j]]

/-! ## A block of rows against the whole matrices -/

/-- The rectified layer of the means at an entry j of one pair of matrices and at an entry i of another: equal when
    the columns agree and row (j 0) of the first pair is row (i 0) of the second (features, sums and count). -/
theorem reluLayer_mean_at {R R' K N : ℕ} (s x : Mat R K) (s' x' : Mat R' K) (dg : Fin R → EReal) (dg' : Fin R' → EReal)
    (Wl : Mat K N) (b : Vc N) (Wr : Mat K N) (j : (⟨2, ![R, N]⟩ : Shape).Idx) (i : (⟨2, ![R', N]⟩ : Shape).Idx)
    (hq : (i 1).val = (j 1).val)
    (hs : ∀ k : Fin K, s (ix2 (j 0) k) = s' (ix2 (i 0) k)) (hx : ∀ k : Fin K, x (ix2 (j 0) k) = x' (ix2 (i 0) k))
    (hd : dg (j 0) = dg' (i 0)) :
    reluLayer (meanOf s dg) x Wl b Wr j = reluLayer (meanOf s' dg') x' Wl b Wr i := by
  have hq' : (i 1 : Fin N) = j 1 := Fin.ext hq
  rw [eq_ix2 j, eq_ix2 i, hq']
  exact reluLayer_row _ _ _ _ Wl b Wr (j 0) (i 0) (fun k => meanOf_row s s' dg dg' (j 0) (i 0) hs hd k) hx (j 1)

/-- The score column at an entry j of one pair of matrices and at an entry i of another, when row (j 0) of the first
    pair is row (i 0) of the second. -/
theorem scoreCol_mean_at {R R' K N : ℕ} (s x : Mat R K) (s' x' : Mat R' K) (dg : Fin R → EReal) (dg' : Fin R' → EReal)
    (Wl : Mat K N) (b : Vc N) (Wr : Mat K N) (wc : Mat N 1) (bc : EReal)
    (j : (⟨2, ![R, 1]⟩ : Shape).Idx) (i : (⟨2, ![R', 1]⟩ : Shape).Idx)
    (hs : ∀ k : Fin K, s (ix2 (j 0) k) = s' (ix2 (i 0) k)) (hx : ∀ k : Fin K, x (ix2 (j 0) k) = x' (ix2 (i 0) k))
    (hd : dg (j 0) = dg' (i 0)) :
    scoreCol (meanOf s dg) x Wl b Wr wc bc j = scoreCol (meanOf s' dg') x' Wl b Wr wc bc i :=
  scoreAt_row _ _ _ _ Wl b Wr wc bc (j 0) (i 0) (fun k => meanOf_row s s' dg dg' (j 0) (i 0) hs hd k) hx

/-! ## The matrix unit's spellings -/

/-- The count column compared with 1, laid along the lanes, divided into s: read at (p, k) it is the mean. -/
theorem mean_of_lanes {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc : (⟨2, ![R, 1]⟩ : Shape).ShapeCasts ⟨2, ![R, 1]⟩)
    (hb : (⟨2, ![R, 1]⟩ : Shape).Broadcasts ⟨2, ![R, K]⟩) (p : Fin R) (k : Fin K) :
    divf (shapeCast ⟨2, ![R, K]⟩ s hcs)
        (broadcastTo ⟨2, ![R, K]⟩ (maximumf (shapeCast ⟨2, ![R, 1]⟩ dv hc)
          (broadcast ⟨2, ![R, 1]⟩ (Scalar.ofBits (F := Ideal) .f32 0x3F800000#32))) hb) (ix2 p k)
      = meanOf s (fun r => dv (ix2 r (0 : Fin 1))) (ix2 p k) := by
  show Ideal.div (shapeCast ⟨2, ![R, K]⟩ s hcs (ix2 p k))
      (broadcastTo ⟨2, ![R, K]⟩ (maximumf (shapeCast ⟨2, ![R, 1]⟩ dv hc)
          (broadcast ⟨2, ![R, 1]⟩ (Scalar.ofBits (F := Ideal) .f32 0x3F800000#32))) hb (ix2 p k)) = _
  rw [shapeCast_self, Cert.LibLayout.broadcastTo_a1_ab_apply]
  show Ideal.div (s (ix2 p k)) (max (shapeCast ⟨2, ![R, 1]⟩ dv hc (ix2 p (0 : Fin 1))) oneW) = _
  rw [shapeCast_self]
  rfl

/-- Two products into zero accumulators, added, plus a one-row bias block laid along the rows, read at (p, q). -/
theorem pre_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (B : FVec Ideal ⟨2, ![1, N]⟩ .f32)
    (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ B hc) hb) (ix2 p q) = preAt a x Wl (rowOf B) Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ B hc) hb (ix2 p q) = preAt a x Wl (rowOf B) Wr p q
  rw [Cert.LibMatmulRows.matmul_rows d hrank hsize hl0 hl1 hr0 hr1 a Wl p q,
    Cert.LibMatmulRows.matmul_rows d hrank hsize hl0 hl1 hr0 hr1 x Wr p q, bias_block B hc hb p q]
  rfl

/-- A matrix z against a one-column matrix into a zero accumulator, plus a one-by-one block laid along the rows, read
    at (p, 0): the row of z against the column, plus the block's entry. -/
theorem score_of_matmul {R N : ℕ} (d : DotDims ⟨2, ![R, N]⟩ ⟨2, ![N, 1]⟩ ⟨2, ![R, 1]⟩)
    (hrank : d.contr.rank = 1) (hsize : d.contr.size ⟨0, by omega⟩ = N)
    (hl0 : ∀ (i : (⟨2, ![R, 1]⟩ : Shape).Idx) (s : d.contr.Idx), (d.lhsIdx i s 0).val = (i 0).val)
    (hl1 : ∀ (i : (⟨2, ![R, 1]⟩ : Shape).Idx) (s : d.contr.Idx), (d.lhsIdx i s 1).val = (s ⟨0, by omega⟩).val)
    (hr0 : ∀ (i : (⟨2, ![R, 1]⟩ : Shape).Idx) (s : d.contr.Idx), (d.rhsIdx i s 0).val = (s ⟨0, by omega⟩).val)
    (hr1 : ∀ (i : (⟨2, ![R, 1]⟩ : Shape).Idx) (s : d.contr.Idx), (d.rhsIdx i s 1).val = (i 1).val)
    (hc : (⟨2, ![1, 1]⟩ : Shape).ShapeCasts ⟨2, ![1, 1]⟩) (hb : (⟨2, ![1, 1]⟩ : Shape).Broadcasts ⟨2, ![R, 1]⟩)
    {φ₁ φ₂ : FTy} (z : FVec Ideal ⟨2, ![R, N]⟩ φ₁) (wc : FVec Ideal ⟨2, ![N, 1]⟩ φ₂) (C : FVec Ideal ⟨2, ![1, 1]⟩ .f32)
    (p : Fin R) :
    addf (matmul d none z wc (constant (F := Ideal) ⟨2, ![R, 1]⟩ .f32 0x00000000#32))
      (broadcastTo ⟨2, ![R, 1]⟩ (shapeCast ⟨2, ![1, 1]⟩ C hc) hb) (ix2 p (0 : Fin 1))
      = (∑ j : Fin N, z (ix2 p j) * wc (ix2 j (0 : Fin 1))) + C (ix2 (0 : Fin 1) (0 : Fin 1)) := by
  show matmul d none z wc (constant (F := Ideal) ⟨2, ![R, 1]⟩ .f32 0x00000000#32) (ix2 p (0 : Fin 1))
      + broadcastTo ⟨2, ![R, 1]⟩ (shapeCast ⟨2, ![1, 1]⟩ C hc) hb (ix2 p (0 : Fin 1)) = _
  rw [Cert.LibMatmulRows.matmul_rows d hrank hsize hl0 hl1 hr0 hr1 z wc p (0 : Fin 1), bias_block C hc hb p (0 : Fin 1)]

end Cert.MeanLayers

end
-- ==== Proof.KernelBlocks.lean ====
/-
  The three kernel bodies at the exact instance, as functions of the blocks they load.

  A block is 5000 consecutive rows. The first two bodies load a block s of summed neighbour features, a block x of
  node features, the block dv of the rows' neighbour counts (one column), the two weight matrices and the bias as a
  one-row matrix, and store max (pre, 0) where pre(p, q) = (sum_k (s(p,k) / max (dv(p,0)) 1) * Wn(k,q) + sum_k x(p,k) *
  Wr(k,q)) + b(0,q): the rectified layer of the block's rows. The third stores, per row, the row of pre against the
  one-column classifier plus the classifier's bias: the score column of the block's rows. Narrowing to the
  half-width format is the identity on exact values, and a product into a zero accumulator is the plain sum.
-/
import proofs.«165756_j85126251807613_2_alg».proof.Proof.Gen.KernelIdeal.Skeleton
import proofs.«165756_j85126251807613_2_alg».proof.Proof.LibMeanLayers

noncomputable section

namespace Cert.KernelIdeal.Blocks

open Cert.KernelIdeal Cert.KernelIdeal.Gen Idealize.ShloMosaic Idealize.ShloMosaic.ValueIdx
open Cert.Sage Cert.MeanLayers Cert.LibRowBias
open scoped BigOperators

/-! ## The contraction records: one contracted axis, the lanes of the left operand against the rows of the right -/

local notation "dSq" => dot_S5000x128_S128x128_S5000x128_1_0_0_1_n_n
local notation "dCol" => dot_S5000x128_S128x1_S5000x1_1_0_0_1_n_n

theorem sq_rank : (dSq).contr.rank = 1 := rfl
theorem sq_size : (dSq).contr.size ⟨0, by decide⟩ = 128 := rfl
theorem sq_l0 (i : S5000x128.Idx) (s : (dSq).contr.Idx) : ((dSq).lhsIdx i s 0).val = (i 0).val := by
  unfold DotDims.lhsIdx
  rw [dif_neg (show ¬(0 : Fin S5000x128.rank) ∈ (dSq).lhsBatch by decide),
    dif_pos (show (0 : Fin S5000x128.rank) ∈ (dSq).lhsNonContracting by decide)]
  rfl
theorem sq_l1 (i : S5000x128.Idx) (s : (dSq).contr.Idx) : ((dSq).lhsIdx i s 1).val = (s ⟨0, by decide⟩).val :=
  (dSq).lhsIdx_val_of_single rfl i s
theorem sq_r0 (i : S5000x128.Idx) (s : (dSq).contr.Idx) : ((dSq).rhsIdx i s 0).val = (s ⟨0, by decide⟩).val :=
  (dSq).rhsIdx_val_of_single rfl i s
theorem sq_r1 (i : S5000x128.Idx) (s : (dSq).contr.Idx) : ((dSq).rhsIdx i s 1).val = (i 1).val := by
  unfold DotDims.rhsIdx
  rw [dif_neg (show ¬(1 : Fin S128x128.rank) ∈ (dSq).rhsBatch by decide),
    dif_pos (show (1 : Fin S128x128.rank) ∈ (dSq).rhsNonContracting by decide)]
  rfl

/-- The pre-activation of a block, in the bodies' spelling, read at (p, q). -/
theorem pre_block (dv : Vec Ideal S5000x1 .f32) (sv xv : Vec Ideal S5000x128 .f32) (wn wr : Vec Ideal S128x128 .f32)
    (bv : Vec Ideal S1x128 .f32) (p : Fin 5000) (q : Fin 128) :
    addf (addf
        (matmul dSq none
          (truncf .bf16 (divf (shapeCast S5000x128 sv shapeCasts_S5000x128_S5000x128)
            (broadcastTo S5000x128 (maximumf (shapeCast S5000x1 dv shapeCasts_S5000x1_S5000x1)
              (broadcast S5000x1 (Scalar.ofBits (F := Ideal) .f32 0x3F800000#32))) broadcasts_S5000x1_S5000x128)) bitsLt_bf16_f32)
          (truncf .bf16 wn bitsLt_bf16_f32) (constant (F := Ideal) S5000x128 .f32 0x00000000#32))
        (matmul dSq none (truncf .bf16 xv bitsLt_bf16_f32) (truncf .bf16 wr bitsLt_bf16_f32)
          (constant (F := Ideal) S5000x128 .f32 0x00000000#32)))
      (broadcastTo S5000x128 (shapeCast S1x128 bv shapeCasts_S1x128_S1x128) broadcasts_S1x128_S5000x128) (ix2 p q)
      = preAt (meanOf sv (fun r => dv (ix2 r (0 : Fin 1)))) xv wn (rowOf bv) wr p q := by
  rw [pre_of_matmul_row dSq sq_rank sq_size sq_l0 sq_l1 sq_r0 sq_r1 shapeCasts_S1x128_S1x128 broadcasts_S1x128_S5000x128]
  refine preAt_congr _ _ _ _ _ _ _ p p (fun k => ?_) (fun k => rfl) q
  exact mean_of_lanes sv dv shapeCasts_S5000x128_S5000x128 shapeCasts_S5000x1_S5000x1 broadcasts_S5000x1_S5000x128 p k

/-- The first body's stored value is the rectified layer of the block's rows. -/
theorem pay0_eq (dv : Vec Ideal S5000x1 .f32) (sv xv : Vec Ideal S5000x128 .f32) (wn wr : Vec Ideal S128x128 .f32)
    (bv : Vec Ideal S1x128 .f32) :
    k0_pay1 (F := Ideal) dv sv xv wn wr bv
      = reluLayer (meanOf sv (fun r => dv (ix2 r (0 : Fin 1)))) xv wn (rowOf bv) wr := by
  funext j
  obtain ⟨p, q, rfl⟩ : ∃ (p : Fin 5000) (q : Fin 128), j = ix2 p q := ⟨j 0, j 1, eq_ix2 j⟩
  unfold k0_pay1
  show max (_ : EReal) _ = max (preAt _ _ _ _ _ p q) _
  refine congrArg (fun z => max z _) ?_
  exact pre_block dv sv xv wn wr bv p q

/-- The second body's stored value: the same layer (it re-casts the block of node features to its own shape first). -/
theorem pay1_eq (dv : Vec Ideal S5000x1 .f32) (sv xv : Vec Ideal S5000x128 .f32) (wn wr : Vec Ideal S128x128 .f32)
    (bv : Vec Ideal S1x128 .f32) :
    k1_pay1 (F := Ideal) dv sv xv wn wr bv
      = reluLayer (meanOf sv (fun r => dv (ix2 r (0 : Fin 1)))) xv wn (rowOf bv) wr := by
  funext j
  obtain ⟨p, q, rfl⟩ : ∃ (p : Fin 5000) (q : Fin 128), j = ix2 p q := ⟨j 0, j 1, eq_ix2 j⟩
  unfold k1_pay1
  show max (_ : EReal) _ = max (preAt _ _ _ _ _ p q) _
  refine congrArg (fun z => max z _) ?_
  refine (pre_block dv sv (shapeCast S5000x128 xv shapeCasts_S5000x128_S5000x128) wn wr bv p q).trans ?_
  rw [shapeCast_self]

theorem col_rank : (dCol).contr.rank = 1 := rfl
theorem col_size : (dCol).contr.size ⟨0, by decide⟩ = 128 := rfl
theorem col_l0 (i : S5000x1.Idx) (s : (dCol).contr.Idx) : ((dCol).lhsIdx i s 0).val = (i 0).val := by
  unfold DotDims.lhsIdx
  rw [dif_neg (show ¬(0 : Fin S5000x128.rank) ∈ (dCol).lhsBatch by decide),
    dif_pos (show (0 : Fin S5000x128.rank) ∈ (dCol).lhsNonContracting by decide)]
  rfl
theorem col_l1 (i : S5000x1.Idx) (s : (dCol).contr.Idx) : ((dCol).lhsIdx i s 1).val = (s ⟨0, by decide⟩).val :=
  (dCol).lhsIdx_val_of_single rfl i s
theorem col_r0 (i : S5000x1.Idx) (s : (dCol).contr.Idx) : ((dCol).rhsIdx i s 0).val = (s ⟨0, by decide⟩).val :=
  (dCol).rhsIdx_val_of_single rfl i s
theorem col_r1 (i : S5000x1.Idx) (s : (dCol).contr.Idx) : ((dCol).rhsIdx i s 1).val = (i 1).val := by
  unfold DotDims.rhsIdx
  rw [dif_neg (show ¬(1 : Fin S128x1.rank) ∈ (dCol).rhsBatch by decide),
    dif_pos (show (1 : Fin S128x1.rank) ∈ (dCol).rhsNonContracting by decide)]
  rfl

/-- The third body's stored value is the score column of the block's rows. -/
theorem pay2_eq (dv : Vec Ideal S5000x1 .f32) (sv xv : Vec Ideal S5000x128 .f32) (wn wr : Vec Ideal S128x128 .f32)
    (bv : Vec Ideal S1x128 .f32) (wc : Vec Ideal S128x1 .f32) (cv : Vec Ideal S1x1 .f32) :
    k2_pay1 (F := Ideal) dv sv xv wn wr bv wc cv
      = scoreCol (meanOf sv (fun r => dv (ix2 r (0 : Fin 1)))) xv wn (rowOf bv) wr wc (cv (ix2 (0 : Fin 1) (0 : Fin 1))) := by
  funext j
  obtain ⟨p, u, rfl⟩ : ∃ (p : Fin 5000) (u : Fin 1), j = ix2 p u := ⟨j 0, j 1, eq_ix2 j⟩
  obtain rfl : u = 0 := Subsingleton.elim _ _
  unfold k2_pay1
  rw [score_of_matmul dCol col_rank col_size col_l0 col_l1 col_r0 col_r1 shapeCasts_S1x1_S1x1 broadcasts_S1x1_S5000x1,
    scoreCol_apply]
  unfold scoreAt
  refine congrArg (fun z => z + _) (Finset.sum_congr rfl fun k _ => ?_)
  refine congrArg (fun z => z * wc (ix2 k (0 : Fin 1))) ?_
  refine (pre_block dv sv (shapeCast S5000x128 xv shapeCasts_S5000x128_S5000x128) wn wr bv p k).trans ?_
  rw [shapeCast_self]

end Cert.KernelIdeal.Blocks

end
-- ==== Proof.KernelArrays.lean ====
/-
  Each kernel launch, from blocks to whole arrays.

  A launch walks ten grid points; point t stages rows 5000 t … 5000 t + 4999 of the row-tiled operands (the summed
  neighbour features, the node features, the one-column counts) and the whole of the small operands (weights, biases),
  runs the body and writes rows 5000 t … 5000 t + 4999 of the result back. Row p of a block is row 5000 t + p of its
  array, a layer's row depends only on that row of its inputs, and the ten blocks tile the 50000 rows: so the
  result array ends as the layer of the whole operand arrays as the launch finds them.
-/
import proofs.«165756_j85126251807613_2_alg».proof.Proof.Gen.KernelIdeal.Frame
import proofs.«165756_j85126251807613_2_alg».proof.Proof.KernelBlocks
import Idealize.ShloMosaic.Lib.Pipeline.Value

set_option maxRecDepth 16384

noncomputable section

namespace Cert.KernelIdeal.Arrays

open Cert.KernelIdeal Cert.KernelIdeal.Gen Cert.KernelIdeal.Blocks Idealize.ShloMosaic Idealize.ShloMosaic.TcCoe
open Idealize.ShloMosaic.ValueIdx Idealize.SL.Sem
open Cert.Sage Cert.MeanLayers Cert.LibRowBias
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- What the first launch leaves in its result array: the rectified layer of the operand arrays as it finds them. -/
def layer0 (c : Dev nD) : S50000x128.Idx → EReal :=
  reluLayer (meanOf (V c main_v18 : S50000x128.Idx → EReal) (fun r => (V c main_v8 : S50000x1.Idx → EReal) (ix2 r (0 : Fin 1))))
    (V c main_arg0 : S50000x128.Idx → EReal) (V c main_arg2 : S128x128.Idx → EReal)
    (rowOf (V c main_v19 : S1x128.Idx → EReal)) (V c main_arg3 : S128x128.Idx → EReal)

/-- The printed index maps over the grid: the row-tiled windows sit at block row t, the small operands at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay0_eq]
  obtain ⟨e00, e01, e10, e11, e20, e21, e30, e31, e40, e41, e50, e51, e60, e61⟩ := idx_facts0 t
  have w3 : iblk0 V c 3 t = (V c main_arg2 : S128x128.Idx → EReal) := by
    funext y
    show (V c main_arg2 : S128x128.Idx → EReal) (((cfg0.win 3).blk t).view.emb y) = (V c main_arg2 : S128x128.Idx → EReal) y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have w4 : iblk0 V c 4 t = (V c main_arg3 : S128x128.Idx → EReal) := by
    funext y
    show (V c main_arg3 : S128x128.Idx → EReal) (((cfg0.win 4).blk t).view.emb y) = (V c main_arg3 : S128x128.Idx → EReal) y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have w5 : iblk0 V c 5 t = (V c main_v19 : S1x128.Idx → EReal) := by
    funext y
    show (V c main_v19 : S1x128.Idx → EReal) (((cfg0.win 5).blk t).view.emb y) = (V c main_v19 : S1x128.Idx → EReal) y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [w3, w4, w5]
  funext j
  show reluLayer (meanOf (iblk0 V c 0 t) fun r => iblk0 V c 2 t (ix2 r (0 : Fin 1))) (iblk0 V c 1 t)
      (V c main_arg2 : S128x128.Idx → EReal) (rowOf (V c main_v19 : S1x128.Idx → EReal)) (V c main_arg3 : S128x128.Idx → EReal) j
    = layer0 V c (((cfg0.win 6).blk t).view.emb j)
  unfold layer0
  refine reluLayer_mean_at (iblk0 V c 0 t) (iblk0 V c 1 t) (V c main_v18 : S50000x128.Idx → EReal) (V c main_arg0 : S50000x128.Idx → EReal)
    (fun r => iblk0 V c 2 t (ix2 r (0 : Fin 1))) (fun r => (V c main_v8 : S50000x1.Idx → EReal) (ix2 r (0 : Fin 1)))
    (V c main_arg2 : S128x128.Idx → EReal) (rowOf (V c main_v19 : S1x128.Idx → EReal)) (V c main_arg3 : S128x128.Idx → EReal)
    j (((cfg0.win 6).blk t).view.emb j) ?_ ?_ ?_ ?_
  · show win0_6.index t (1 : Fin 2) * 128 + 1 * (j 1).val = (j 1).val
    omega
  · intro k
    show (V c main_v18 : S50000x128.Idx → EReal) (((cfg0.win 0).blk t).view.emb (ix2 (j 0) k))
      = (V c main_v18 : S50000x128.Idx → EReal) (ix2 ((((cfg0.win 6).blk t).view.emb j) 0) k)
    refine congrArg _ (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · intro k
    show (V c main_arg0 : S50000x128.Idx → EReal) (((cfg0.win 1).blk t).view.emb (ix2 (j 0) k))
      = (V c main_arg0 : S50000x128.Idx → EReal) (ix2 ((((cfg0.win 6).blk t).view.emb j) 0) k)
    refine congrArg _ (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * k.val = k.val; omega
  · show (V c main_v8 : S50000x1.Idx → EReal) (((cfg0.win 2).blk t).view.emb (ix2 (j 0) (0 : Fin 1)))
      = (V c main_v8 : S50000x1.Idx → EReal) (ix2 ((((cfg0.win 6).blk t).view.emb j) 0) (0 : Fin 1))
    refine congrArg _ (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 1 + 1 * 0 = 0; omega

/-- An index of the result array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every block row is some point's. -/
theorem idx_onto0 : ∀ q0 : Fin 10, ∃ t : Fin cfg0.N, win0_6.index t = ![q0.val, 0] :=
  (by decide +kernel : ∀ q0 : Fin 10, ∃ t : Fin grid0.N, win0_6.index t = ![q0.val, 0])

/-- The ten blocks tile the result array. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The first launch's result array after the launch. -/
theorem final0 (c : Dev nD) : (dat0 V c).arrAt 6 cfg0.N = layer0 V c :=
  (dat0 V c).arrAt_eq_of_cover 6 (layer0 V c) (fun t _ => flushed0_eq V c t) (cover0)

/-! ## The second launch -/

/-- What the second launch leaves in its result array: the rectified layer of the operand arrays as it finds them. -/
def layer1 (c : Dev nD) : S50000x128.Idx → EReal :=
  reluLayer (meanOf (V c main_v30 : S50000x128.Idx → EReal) (fun r => (V c main_v8 : S50000x1.Idx → EReal) (ix2 r (0 : Fin 1))))
    (V c main_v20 : S50000x128.Idx → EReal) (V c main_arg5 : S128x128.Idx → EReal)
    (rowOf (V c main_v31 : S1x128.Idx → EReal)) (V c main_arg6 : S128x128.Idx → EReal)

/-- The printed index maps over the grid: the row-tiled windows sit at block row t, the small operands at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem flushed1_eq (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  rw [pay1_eq]
  obtain ⟨e00, e01, e10, e11, e20, e21, e30, e31, e40, e41, e50, e51, e60, e61⟩ := idx_facts1 t
  have w3 : iblk1 V c 3 t = (V c main_arg5 : S128x128.Idx → EReal) := by
    funext y
    show (V c main_arg5 : S128x128.Idx → EReal) (((cfg1.win 3).blk t).view.emb y) = (V c main_arg5 : S128x128.Idx → EReal) y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have w4 : iblk1 V c 4 t = (V c main_arg6 : S128x128.Idx → EReal) := by
    funext y
    show (V c main_arg6 : S128x128.Idx → EReal) (((cfg1.win 4).blk t).view.emb y) = (V c main_arg6 : S128x128.Idx → EReal) y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have w5 : iblk1 V c 5 t = (V c main_v31 : S1x128.Idx → EReal) := by
    funext y
    show (V c main_v31 : S1x128.Idx → EReal) (((cfg1.win 5).blk t).view.emb y) = (V c main_v31 : S1x128.Idx → EReal) y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [w3, w4, w5]
  funext j
  show reluLayer (meanOf (iblk1 V c 0 t) fun r => iblk1 V c 2 t (ix2 r (0 : Fin 1))) (iblk1 V c 1 t)
      (V c main_arg5 : S128x128.Idx → EReal) (rowOf (V c main_v31 : S1x128.Idx → EReal)) (V c main_arg6 : S128x128.Idx → EReal) j
    = layer1 V c (((cfg1.win 6).blk t).view.emb j)
  unfold layer1
  refine reluLayer_mean_at (iblk1 V c 0 t) (iblk1 V c 1 t) (V c main_v30 : S50000x128.Idx → EReal) (V c main_v20 : S50000x128.Idx → EReal)
    (fun r => iblk1 V c 2 t (ix2 r (0 : Fin 1))) (fun r => (V c main_v8 : S50000x1.Idx → EReal) (ix2 r (0 : Fin 1)))
    (V c main_arg5 : S128x128.Idx → EReal) (rowOf (V c main_v31 : S1x128.Idx → EReal)) (V c main_arg6 : S128x128.Idx → EReal)
    j (((cfg1.win 6).blk t).view.emb j) ?_ ?_ ?_ ?_
  · show win1_6.index t (1 : Fin 2) * 128 + 1 * (j 1).val = (j 1).val
    omega
  · intro k
    show (V c main_v30 : S50000x128.Idx → EReal) (((cfg1.win 0).blk t).view.emb (ix2 (j 0) k))
      = (V c main_v30 : S50000x128.Idx → EReal) (ix2 ((((cfg1.win 6).blk t).view.emb j) 0) k)
    refine congrArg _ (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · intro k
    show (V c main_v20 : S50000x128.Idx → EReal) (((cfg1.win 1).blk t).view.emb (ix2 (j 0) k))
      = (V c main_v20 : S50000x128.Idx → EReal) (ix2 ((((cfg1.win 6).blk t).view.emb j) 0) k)
    refine congrArg _ (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * k.val = k.val; omega
  · show (V c main_v8 : S50000x1.Idx → EReal) (((cfg1.win 2).blk t).view.emb (ix2 (j 0) (0 : Fin 1)))
      = (V c main_v8 : S50000x1.Idx → EReal) (ix2 ((((cfg1.win 6).blk t).view.emb j) 0) (0 : Fin 1))
    refine congrArg _ (funext fun a => Fin.ext ?_)
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 1 + 1 * 0 = 0; omega

/-- An index of the result array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Every block row is some point's. -/
theorem idx_onto1 : ∀ q0 : Fin 10, ∃ t : Fin cfg1.N, win1_6.index t = ![q0.val, 0] :=
  (by decide +kernel : ∀ q0 : Fin 10, ∃ t : Fin grid1.N, win1_6.index t = ![q0.val, 0])

/-- The ten blocks tile the result array. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The second launch's result array after the launch. -/
theorem final1 (c : Dev nD) : (dat1 V c).arrAt 6 cfg1.N = layer1 V c :=
  (dat1 V c).arrAt_eq_of_cover 6 (layer1 V c) (fun t _ => flushed1_eq V c t) (cover1)

/-! ## The third launch -/

/-- What the third launch leaves in its result array: the score column of the operand arrays as it finds them. -/
def score2 (c : Dev nD) : S50000x1.Idx → EReal :=
  scoreCol (meanOf (V c main_v42 : S50000x128.Idx → EReal) (fun r => (V c main_v8 : S50000x1.Idx → EReal) (ix2 r (0 : Fin 1))))
    (V c main_v32 : S50000x128.Idx → EReal) (V c main_arg8 : S128x128.Idx → EReal)
    (rowOf (V c main_v43 : S1x128.Idx → EReal)) (V c main_arg9 : S128x128.Idx → EReal) (V c main_arg11 : S128x1.Idx → EReal)
    ((V c main_v44 : S1x1.Idx → EReal) (ix2 (0 : Fin 1) (0 : Fin 1)))

/-- The printed index maps over the grid: the row-tiled windows sit at block row t, the small operands at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

set_option maxHeartbeats 1600000 in
theorem flushed2_eq (c : Dev nD) (t : Fin cfg2.N) :
    (dat2 V c).flushed 8 t = ((cfg2.win 8).blk t).view.read (Elt Ideal) (score2 V c) := by
  show (cfg2.win 8).cut (grid2.coords t) ((dat2 V c).after 8 t) = _
  rw [after2_8]
  unfold out2_8
  rw [View.canon_unit_zero hz]
  simp only [View.ld_unit_zero (S := S5000x128) hz, View.ld_unit_zero (S := S5000x1) hz,
    View.ld_unit_zero (S := S128x128) hz, View.ld_unit_zero (S := S1x128) hz, View.ld_unit_zero (S := S128x1) hz,
    View.ld_unit_zero (S := S1x1) hz]
  rw [pay2_eq]
  obtain ⟨e00, e01, e10, e11, e20, e21, e30, e31, e40, e41, e50, e51, e60, e61, e70, e71, e80, e81⟩ := idx_facts2 t
  have w3 : iblk2 V c 3 t = (V c main_arg8 : S128x128.Idx → EReal) := by
    funext y
    show (V c main_arg8 : S128x128.Idx → EReal) (((cfg2.win 3).blk t).view.emb y) = (V c main_arg8 : S128x128.Idx → EReal) y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have w4 : iblk2 V c 4 t = (V c main_arg9 : S128x128.Idx → EReal) := by
    funext y
    show (V c main_arg9 : S128x128.Idx → EReal) (((cfg2.win 4).blk t).view.emb y) = (V c main_arg9 : S128x128.Idx → EReal) y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have w5 : iblk2 V c 5 t = (V c main_v43 : S1x128.Idx → EReal) := by
    funext y
    show (V c main_v43 : S1x128.Idx → EReal) (((cfg2.win 5).blk t).view.emb y) = (V c main_v43 : S1x128.Idx → EReal) y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  have w6 : iblk2 V c 6 t = (V c main_arg11 : S128x1.Idx → EReal) := by
    funext y
    show (V c main_arg11 : S128x1.Idx → EReal) (((cfg2.win 6).blk t).view.emb y) = (V c main_arg11 : S128x1.Idx → EReal) y
    refine congrArg _ (funext fun a => Fin.ext ?_)
    match a with
    | ⟨0, _⟩ => show win2_6.index t (0 : Fin 2) * 128 + 1 * (y 0).val = (y 0).val; omega
    | ⟨1, _⟩ => show win2_6.index t (1 : Fin 2) * 1 + 1 * (y 1).val = (y 1).val; omega
  have w7 : iblk2 V c 7 t = (V c main_v44 : S1x1.Idx → EReal) := by
    funext y
    show (V c main_v44 : S1x1.Idx → EReal) (((cfg2.win 7).blk t).view.emb y) = (V c main_v44 : S1x1.Idx → EReal) y
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 1 + 1 * (y 1).val = (y 1).val; omega
  rw [w3, w4, w5, w6, w7]
  funext j
  show scoreCol (meanOf (iblk2 V c 0 t) fun r => iblk2 V c 2 t (ix2 r (0 : Fin 1))) (iblk2 V c 1 t)
      (V c main_arg8 : S128x128.Idx → EReal) (rowOf (V c main_v43 : S1x128.Idx → EReal)) (V c main_arg9 : S128x128.Idx → EReal)
      (V c main_arg11 : S128x1.Idx → EReal) ((V c main_v44 : S1x1.Idx → EReal) (ix2 (0 : Fin 1) (0 : Fin 1))) j
    = score2 V c (((cfg2.win 8).blk t).view.emb j)
  unfold score2
  refine scoreCol_mean_at (iblk2 V c 0 t) (iblk2 V c 1 t) (V c main_v42 : S50000x128.Idx → EReal) (V c main_v32 : S50000x128.Idx → EReal)
    (fun r => iblk2 V c 2 t (ix2 r (0 : Fin 1))) (fun r => (V c main_v8 : S50000x1.Idx → EReal) (ix2 r (0 : Fin 1)))
    (V c main_arg8 : S128x128.Idx → EReal) (rowOf (V c main_v43 : S1x128.Idx → EReal)) (V c main_arg9 : S128x128.Idx → EReal)
    (V c main_arg11 : S128x1.Idx → EReal) ((V c main_v44 : S1x1.Idx → EReal) (ix2 (0 : Fin 1) (0 : Fin 1)))
    j (((cfg2.win 8).blk t).view.emb j) ?_ ?_ ?_
  · intro k
    show (V c main_v42 : S50000x128.Idx → EReal) (((cfg2.win 0).blk t).view.emb (ix2 (j 0) k))
      = (V c main_v42 : S50000x128.Idx → EReal) (ix2 ((((cfg2.win 8).blk t).view.emb j) 0) k)
    refine congrArg _ (funext fun a => Fin.ext ?_)
    match a with
    | ⟨0, _⟩ => show win2_0.index t (0 : Fin 2) * 5000 + 1 * (j 0).val = win2_8.index t (0 : Fin 2) * 5000 + 1 * (j 0).val; omega
    | ⟨1, _⟩ => show win2_0.index t (1 : Fin 2) * 128 + 1 * k.val = k.val; omega
  · intro k
    show (V c main_v32 : S50000x128.Idx → EReal) (((cfg2.win 1).blk t).view.emb (ix2 (j 0) k))
      = (V c main_v32 : S50000x128.Idx → EReal) (ix2 ((((cfg2.win 8).blk t).view.emb j) 0) k)
    refine congrArg _ (funext fun a => Fin.ext ?_)
    match a with
    | ⟨0, _⟩ => show win2_1.index t (0 : Fin 2) * 5000 + 1 * (j 0).val = win2_8.index t (0 : Fin 2) * 5000 + 1 * (j 0).val; omega
    | ⟨1, _⟩ => show win2_1.index t (1 : Fin 2) * 128 + 1 * k.val = k.val; omega
  ·
    show (V c main_v8 : S50000x1.Idx → EReal) (((cfg2.win 2).blk t).view.emb (ix2 (j 0) (0 : Fin 1)))
      = (V c main_v8 : S50000x1.Idx → EReal) (ix2 ((((cfg2.win 8).blk t).view.emb j) 0) (0 : Fin 1))
    refine congrArg _ (funext fun a => Fin.ext ?_)
    match a with
    | ⟨0, _⟩ => show win2_2.index t (0 : Fin 2) * 5000 + 1 * (j 0).val = win2_8.index t (0 : Fin 2) * 5000 + 1 * (j 0).val; omega
    | ⟨1, _⟩ => show win2_2.index t (1 : Fin 2) * 1 + 1 * 0 = 0; omega

/-- An index of the result array is in point t's block iff each coordinate is in the block's range on its axis. -/
theorem mem_blk2 (t : Fin cfg2.N) (i : S50000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v45).slice (win2_8.rect t)).set ↔ _
  rw [View.set_slice_whole, Rect.mem_set_unit]
  exact Iff.rfl

/-- Every block row is some point's. -/
theorem idx_onto2 : ∀ q0 : Fin 10, ∃ t : Fin cfg2.N, win2_8.index t = ![q0.val, 0] :=
  (by decide +kernel : ∀ q0 : Fin 10, ∃ t : Fin grid2.N, win2_8.index t = ![q0.val, 0])

/-- The ten blocks tile the result array. -/
theorem cover2 (i : S50000x1.Idx) : ∃ t : Fin cfg2.N, (cfg2.win 8).flush t = true ∧ i ∈ ((cfg2.win 8).blk t).view.set := by
  have hi0 : (i 0).val < 50000 := (i 0).isLt
  have hi1 : (i 1).val < 1 := (i 1).isLt
  obtain ⟨t, ht⟩ := idx_onto2 ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [mem_blk2]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 1 ≤ (i 1).val ∧ (i 1).val < win2_8.index t (1 : Fin 2) * 1 + 1; omega

/-- The third launch's result array after the launch. -/
theorem final2 (c : Dev nD) : (dat2 V c).arrAt 8 cfg2.N = score2 V c :=
  (dat2 V c).arrAt_eq_of_cover 8 (score2 V c) (fun t _ => flushed2_eq V c t) (cover2)

end Cert.KernelIdeal.Arrays

end
-- ==== Proof.KernelStretches.lean ====
/-
  The host operations of the kernel program between its launches, read as functions of the buffers they start from.

  The program computes once, before its first launch, the table of source nodes and the table of target nodes of the
  edges (the two rows of the edge table, each as a vector) and the column of edge counts per target node; before each
  launch it gathers the rows of the current feature matrix by the source table and adds them into zeros at the rows the
  target table names, and casts that layer's bias to one row. After the last launch it casts the column of scores to a
  vector. Each such value is stated for an arbitrary assignment of contents to the buffers, as the operations' composed
  function of the buffers the stretch reads; every buffer a stretch does not write keeps its contents. The gather and
  the scatter are kept as they are.
-/
import proofs.«165756_j85126251807613_2_alg».proof.Proof.Gen.KernelIdeal.Launch
import Idealize.ShloMosaic.Lib.StableHlo.Run
import Idealize.ShloMosaic.PureOps.Ideal
import Idealize.ShloMosaic.PureOps.Ideal.Laws

noncomputable section

namespace Cert.KernelIdeal.Stretches

open Cert.KernelIdeal Cert.KernelIdeal.Gen Idealize.ShloMosaic Idealize.ShloMosaic.StableHlo Idealize.SL.Sem

/-- The source node of every edge: row 0 of the edge table as a vector. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The target node of every edge: row 1 of the edge table as a vector. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The summed neighbour features of a feature matrix h: the rows of h gathered by the source table (a negative entry
    counted from the end) and added into zeros at the rows the target table names. -/
def aggOf (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The number of edges that end at each node, as a column: ones added into zeros at the rows the target table names. -/
def degCol (dst : (⟨S800000, .i32⟩ : BufTy).Contents (Elt Ideal)) : (⟨S50000x1, .f32⟩ : BufTy).Contents (Elt Ideal) :=
  broadcastInDim S50000x1 ![0] bcast_S50000_S50000x1_0
    (Host.scatterAdd (F := Ideal) (φ := .f32) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))

variable (U : Valuation τ sig (Elt Ideal))

/-! ## Before the first launch -/

/-- The table of source nodes. -/
theorem s0_v1 : after (hostOps0 (F := Ideal)) U (Proc.devRef .tc main_v1)
    = srcOf (U (Proc.devRef .tc main_arg1)) := by
  after_results
  rfl

/-- The table of target nodes. -/
theorem s0_v3 : after (hostOps0 (F := Ideal)) U (Proc.devRef .tc main_v3)
    = dstOf (U (Proc.devRef .tc main_arg1)) := by
  after_results
  rfl

/-- The column of edge counts. -/
theorem s0_v8 : after (hostOps0 (F := Ideal)) U (Proc.devRef .tc main_v8)
    = degCol (dstOf (U (Proc.devRef .tc main_arg1))) := by
  after_results
  rfl

/-- The aggregated node features. -/
theorem s0_v18 : after (hostOps0 (F := Ideal)) U (Proc.devRef .tc main_v18)
    = aggOf (U (Proc.devRef .tc main_arg0)) (srcOf (U (Proc.devRef .tc main_arg1))) (dstOf (U (Proc.devRef .tc main_arg1))) := by
  after_results_simp
  rfl

/-- The first layer's bias as one row. -/
theorem s0_v19 : after (hostOps0 (F := Ideal)) U (Proc.devRef .tc main_v19)
    = shapeCast _ (U (Proc.devRef .tc main_arg4)) shapeCasts_S128_S1x128 := by
  after_results
  rfl

/-! The buffers the first stretch does not write. -/
theorem s0_keep_main_arg0 : after (hostOps0 (F := Ideal)) U (Proc.devRef .tc main_arg0) = U (Proc.devRef .tc main_arg0) := by
  after_results_simp <;> rfl
theorem s0_keep_main_arg2 : after (hostOps0 (F := Ideal)) U (Proc.devRef .tc main_arg2) = U (Proc.devRef .tc main_arg2) := by
  after_results_simp <;> rfl
theorem s0_keep_main_arg3 : after (hostOps0 (F := Ideal)) U (Proc.devRef .tc main_arg3) = U (Proc.devRef .tc main_arg3) := by
  after_results_simp <;> rfl
theorem s0_keep_main_arg5 : after (hostOps0 (F := Ideal)) U (Proc.devRef .tc main_arg5) = U (Proc.devRef .tc main_arg5) := by
  after_results_simp <;> rfl
theorem s0_keep_main_arg6 : after (hostOps0 (F := Ideal)) U (Proc.devRef .tc main_arg6) = U (Proc.devRef .tc main_arg6) := by
  after_results_simp <;> rfl
theorem s0_keep_main_arg7 : after (hostOps0 (F := Ideal)) U (Proc.devRef .tc main_arg7) = U (Proc.devRef .tc main_arg7) := by
  after_results_simp <;> rfl
theorem s0_keep_main_arg8 : after (hostOps0 (F := Ideal)) U (Proc.devRef .tc main_arg8) = U (Proc.devRef .tc main_arg8) := by
  after_results_simp <;> rfl
theorem s0_keep_main_arg9 : after (hostOps0 (F := Ideal)) U (Proc.devRef .tc main_arg9) = U (Proc.devRef .tc main_arg9) := by
  after_results_simp <;> rfl
theorem s0_keep_main_arg10 : after (hostOps0 (F := Ideal)) U (Proc.devRef .tc main_arg10) = U (Proc.devRef .tc main_arg10) := by
  after_results_simp <;> rfl
theorem s0_keep_main_arg11 : after (hostOps0 (F := Ideal)) U (Proc.devRef .tc main_arg11) = U (Proc.devRef .tc main_arg11) := by
  after_results_simp <;> rfl
theorem s0_keep_main_arg12 : after (hostOps0 (F := Ideal)) U (Proc.devRef .tc main_arg12) = U (Proc.devRef .tc main_arg12) := by
  after_results_simp <;> rfl

/-! ## Between the first and the second launch -/

/-- The aggregated first hidden layer. -/
theorem s1_v30 : after (hostOps1 (F := Ideal)) U (Proc.devRef .tc main_v30)
    = aggOf (U (Proc.devRef .tc main_v20)) (U (Proc.devRef .tc main_v1)) (U (Proc.devRef .tc main_v3)) := by
  after_results_simp
  rfl

/-- The second layer's bias as one row. -/
theorem s1_v31 : after (hostOps1 (F := Ideal)) U (Proc.devRef .tc main_v31)
    = shapeCast _ (U (Proc.devRef .tc main_arg7)) shapeCasts_S128_S1x128 := by
  after_results
  rfl

/-! The buffers the second stretch does not write. -/
theorem s1_keep_main_v1 : after (hostOps1 (F := Ideal)) U (Proc.devRef .tc main_v1) = U (Proc.devRef .tc main_v1) := by
  after_results_simp <;> rfl
theorem s1_keep_main_v3 : after (hostOps1 (F := Ideal)) U (Proc.devRef .tc main_v3) = U (Proc.devRef .tc main_v3) := by
  after_results_simp <;> rfl
theorem s1_keep_main_v8 : after (hostOps1 (F := Ideal)) U (Proc.devRef .tc main_v8) = U (Proc.devRef .tc main_v8) := by
  after_results_simp <;> rfl
theorem s1_keep_main_v20 : after (hostOps1 (F := Ideal)) U (Proc.devRef .tc main_v20) = U (Proc.devRef .tc main_v20) := by
  after_results_simp <;> rfl
theorem s1_keep_main_arg5 : after (hostOps1 (F := Ideal)) U (Proc.devRef .tc main_arg5) = U (Proc.devRef .tc main_arg5) := by
  after_results_simp <;> rfl
theorem s1_keep_main_arg6 : after (hostOps1 (F := Ideal)) U (Proc.devRef .tc main_arg6) = U (Proc.devRef .tc main_arg6) := by
  after_results_simp <;> rfl
theorem s1_keep_main_arg8 : after (hostOps1 (F := Ideal)) U (Proc.devRef .tc main_arg8) = U (Proc.devRef .tc main_arg8) := by
  after_results_simp <;> rfl
theorem s1_keep_main_arg9 : after (hostOps1 (F := Ideal)) U (Proc.devRef .tc main_arg9) = U (Proc.devRef .tc main_arg9) := by
  after_results_simp <;> rfl
theorem s1_keep_main_arg10 : after (hostOps1 (F := Ideal)) U (Proc.devRef .tc main_arg10) = U (Proc.devRef .tc main_arg10) := by
  after_results_simp <;> rfl
theorem s1_keep_main_arg11 : after (hostOps1 (F := Ideal)) U (Proc.devRef .tc main_arg11) = U (Proc.devRef .tc main_arg11) := by
  after_results_simp <;> rfl
theorem s1_keep_main_arg12 : after (hostOps1 (F := Ideal)) U (Proc.devRef .tc main_arg12) = U (Proc.devRef .tc main_arg12) := by
  after_results_simp <;> rfl

/-! ## Between the second and the third launch -/

/-- The aggregated second hidden layer. -/
theorem s2_v42 : after (hostOps2 (F := Ideal)) U (Proc.devRef .tc main_v42)
    = aggOf (U (Proc.devRef .tc main_v32)) (U (Proc.devRef .tc main_v1)) (U (Proc.devRef .tc main_v3)) := by
  after_results_simp
  rfl

/-- The third layer's bias as one row. -/
theorem s2_v43 : after (hostOps2 (F := Ideal)) U (Proc.devRef .tc main_v43)
    = shapeCast _ (U (Proc.devRef .tc main_arg10)) shapeCasts_S128_S1x128 := by
  after_results
  rfl

/-- The classifier's bias as a one-by-one block. -/
theorem s2_v44 : after (hostOps2 (F := Ideal)) U (Proc.devRef .tc main_v44)
    = shapeCast _ (U (Proc.devRef .tc main_arg12)) shapeCasts_S1_S1x1 := by
  after_results
  rfl

/-! The buffers the third stretch does not write. -/
theorem s2_keep_main_v8 : after (hostOps2 (F := Ideal)) U (Proc.devRef .tc main_v8) = U (Proc.devRef .tc main_v8) := by
  after_results_simp <;> rfl
theorem s2_keep_main_v32 : after (hostOps2 (F := Ideal)) U (Proc.devRef .tc main_v32) = U (Proc.devRef .tc main_v32) := by
  after_results_simp <;> rfl
theorem s2_keep_main_arg8 : after (hostOps2 (F := Ideal)) U (Proc.devRef .tc main_arg8) = U (Proc.devRef .tc main_arg8) := by
  after_results_simp <;> rfl
theorem s2_keep_main_arg9 : after (hostOps2 (F := Ideal)) U (Proc.devRef .tc main_arg9) = U (Proc.devRef .tc main_arg9) := by
  after_results_simp <;> rfl
theorem s2_keep_main_arg11 : after (hostOps2 (F := Ideal)) U (Proc.devRef .tc main_arg11) = U (Proc.devRef .tc main_arg11) := by
  after_results_simp <;> rfl

/-! ## After the last launch -/

/-- The column of scores as a vector. -/
theorem s3_v46 : after (hostOps3 (F := Ideal)) U (Proc.devRef .tc main_v46)
    = shapeCast _ (U (Proc.devRef .tc main_v45)) shapeCasts_S50000x1_S50000 := by
  after_results
  rfl

end Cert.KernelIdeal.Stretches

end
-- ==== Proof.KernelFold.lean ====
/-
  The kernel program's result as one function of its argument arrays.

  With e the edge table, src and dst its two rows, cnt the column of in-degree counts, agg h the sum over edges
  j -> i of row j of h, and for each layer the weights Wn, Wr and bias b:
      h1 = max (mean (agg x) cnt · Wn0 + x · Wr0 + b0, 0),   h2 = max (mean (agg h1) cnt · Wn1 + h1 · Wr1 + b1, 0),
      result p = (mean (agg h2) cnt · Wn2 + h2 · Wr2 + b2)(p, ·) · w_cls + b_cls.
  The buffers' contents at the seven segment boundaries are followed from the launch memory: a stretch of host
  operations gives each buffer it writes as the operations' term of the buffers it reads and leaves the others; a launch
  leaves in its result array the layer of its operand arrays as it finds them, leaves its operand arrays as they were,
  and touches nothing else.
-/
import proofs.«165756_j85126251807613_2_alg».proof.Proof.Gen.KernelIdeal.Frame
import proofs.«165756_j85126251807613_2_alg».proof.Proof.KernelArrays
import proofs.«165756_j85126251807613_2_alg».proof.Proof.KernelStretches

set_option maxRecDepth 16384

noncomputable section

namespace Cert.KernelIdeal.Fold

open Cert.KernelIdeal Cert.KernelIdeal.Gen Cert.KernelIdeal.Arrays Cert.KernelIdeal.Stretches
open Idealize.ShloMosaic Idealize.ShloMosaic.TcCoe Idealize.ShloMosaic.ValueIdx Idealize.SL.Sem
open Cert.Sage Cert.MeanLayers Cert.LibRowBias
open Idealize.ShloMosaic.Pipeline (Dat Cfg Window)

variable (m : (ℓ : Loc nD τ sig) → Buf (Elt Ideal) ℓ) (ρ : Dev nD → PrngReg) (c : Dev nD)

/-! ## The named values -/

/-- The edge table's first row: the source node of every edge. -/
def src : S800000.Idx → BitVec 32 := srcOf (m ((c : Thread nD τ).loc main_arg1))
/-- The edge table's second row: the target node of every edge. -/
def dst : S800000.Idx → BitVec 32 := dstOf (m ((c : Thread nD τ).loc main_arg1))
/-- The column of in-degree counts. -/
def cntCol : S50000x1.Idx → EReal := degCol (dst m c)
/-- The sum over the edges into each node of the source rows of h. -/
def agg (h : S50000x128.Idx → EReal) : S50000x128.Idx → EReal := aggOf h (src m c) (dst m c)
/-- The first layer's output. -/
def h1 : S50000x128.Idx → EReal :=
  reluLayer (meanOf (agg m c (m ((c : Thread nD τ).loc main_arg0))) (fun r => cntCol m c (ix2 r (0 : Fin 1)))) (m ((c : Thread nD τ).loc main_arg0)) (m ((c : Thread nD τ).loc main_arg2))
    (rowOf (shapeCast S1x128 (m ((c : Thread nD τ).loc main_arg4)) shapeCasts_S128_S1x128)) (m ((c : Thread nD τ).loc main_arg3))
/-- The second layer's output. -/
def h2 : S50000x128.Idx → EReal :=
  reluLayer (meanOf (agg m c (h1 m c)) (fun r => cntCol m c (ix2 r (0 : Fin 1)))) (h1 m c) (m ((c : Thread nD τ).loc main_arg5))
    (rowOf (shapeCast S1x128 (m ((c : Thread nD τ).loc main_arg7)) shapeCasts_S128_S1x128)) (m ((c : Thread nD τ).loc main_arg6))
/-- The scores, as a column. -/
def outCol : S50000x1.Idx → EReal :=
  scoreCol (meanOf (agg m c (h2 m c)) (fun r => cntCol m c (ix2 r (0 : Fin 1)))) (h2 m c) (m ((c : Thread nD τ).loc main_arg8))
    (rowOf (shapeCast S1x128 (m ((c : Thread nD τ).loc main_arg10)) shapeCasts_S128_S1x128)) (m ((c : Thread nD τ).loc main_arg9)) (m ((c : Thread nD τ).loc main_arg11))
    ((shapeCast S1x1 (m ((c : Thread nD τ).loc main_arg12)) shapeCasts_S1_S1x1 : S1x1.Idx → EReal) (ix2 (0 : Fin 1) (0 : Fin 1)))
/-- The result: the scores as a vector. -/
def out : S50000.Idx → EReal := shapeCast S50000 (outCol m c) shapeCasts_S50000x1_S50000

/-! ## Before the first launch -/

theorem a1_v1 : W1 m ρ c (Proc.devRef .tc main_v1) = src m c := s0_v1 (W0 m ρ c)
theorem a1_v3 : W1 m ρ c (Proc.devRef .tc main_v3) = dst m c := s0_v3 (W0 m ρ c)
theorem a1_v8 : W1 m ρ c (Proc.devRef .tc main_v8) = cntCol m c := s0_v8 (W0 m ρ c)
theorem a1_v18 : W1 m ρ c (Proc.devRef .tc main_v18) = agg m c (m ((c : Thread nD τ).loc main_arg0)) := s0_v18 (W0 m ρ c)
theorem a1_v19 : W1 m ρ c (Proc.devRef .tc main_v19) = shapeCast S1x128 (m ((c : Thread nD τ).loc main_arg4)) shapeCasts_S128_S1x128 := s0_v19 (W0 m ρ c)
theorem a1_arg0 : W1 m ρ c (Proc.devRef .tc main_arg0) = m ((c : Thread nD τ).loc main_arg0) := s0_keep_main_arg0 (W0 m ρ c)
theorem a1_arg2 : W1 m ρ c (Proc.devRef .tc main_arg2) = m ((c : Thread nD τ).loc main_arg2) := s0_keep_main_arg2 (W0 m ρ c)
theorem a1_arg3 : W1 m ρ c (Proc.devRef .tc main_arg3) = m ((c : Thread nD τ).loc main_arg3) := s0_keep_main_arg3 (W0 m ρ c)
theorem a1_arg5 : W1 m ρ c (Proc.devRef .tc main_arg5) = m ((c : Thread nD τ).loc main_arg5) := s0_keep_main_arg5 (W0 m ρ c)
theorem a1_arg6 : W1 m ρ c (Proc.devRef .tc main_arg6) = m ((c : Thread nD τ).loc main_arg6) := s0_keep_main_arg6 (W0 m ρ c)
theorem a1_arg7 : W1 m ρ c (Proc.devRef .tc main_arg7) = m ((c : Thread nD τ).loc main_arg7) := s0_keep_main_arg7 (W0 m ρ c)
theorem a1_arg8 : W1 m ρ c (Proc.devRef .tc main_arg8) = m ((c : Thread nD τ).loc main_arg8) := s0_keep_main_arg8 (W0 m ρ c)
theorem a1_arg9 : W1 m ρ c (Proc.devRef .tc main_arg9) = m ((c : Thread nD τ).loc main_arg9) := s0_keep_main_arg9 (W0 m ρ c)
theorem a1_arg10 : W1 m ρ c (Proc.devRef .tc main_arg10) = m ((c : Thread nD τ).loc main_arg10) := s0_keep_main_arg10 (W0 m ρ c)
theorem a1_arg11 : W1 m ρ c (Proc.devRef .tc main_arg11) = m ((c : Thread nD τ).loc main_arg11) := s0_keep_main_arg11 (W0 m ρ c)
theorem a1_arg12 : W1 m ρ c (Proc.devRef .tc main_arg12) = m ((c : Thread nD τ).loc main_arg12) := s0_keep_main_arg12 (W0 m ρ c)

/-! ## After the first launch -/

theorem a2_v20 : W2 m ρ c (Proc.devRef .tc main_v20) = h1 m c := by
  refine (W2_arr m ρ c 6).trans ((final0 (V1 m ρ) c).trans ?_)
  unfold layer0 h1
  show reluLayer (meanOf (W1 m ρ c (Proc.devRef .tc main_v18)) (fun r => W1 m ρ c (Proc.devRef .tc main_v8) (ix2 r (0 : Fin 1))))
      (W1 m ρ c (Proc.devRef .tc main_arg0)) (W1 m ρ c (Proc.devRef .tc main_arg2)) (rowOf (W1 m ρ c (Proc.devRef .tc main_v19)))
      (W1 m ρ c (Proc.devRef .tc main_arg3)) = _
  rw [a1_v18, a1_v8, a1_arg0, a1_arg2, a1_v19, a1_arg3]
theorem a2_v8 : W2 m ρ c (Proc.devRef .tc main_v8) = cntCol m c :=
  ((W2_arr m ρ c 2).trans (((dat0 (V1 m ρ) c).arrAt_in 2 rfl _).trans (A_eq0 (V1 m ρ) c 2))).trans (a1_v8 m ρ c)
theorem a2_v1 : W2 m ρ c (Proc.devRef .tc main_v1) = src m c := (W2_of_ne m ρ c main_v1 (by decide)).trans (a1_v1 m ρ c)
theorem a2_v3 : W2 m ρ c (Proc.devRef .tc main_v3) = dst m c := (W2_of_ne m ρ c main_v3 (by decide)).trans (a1_v3 m ρ c)
theorem a2_arg5 : W2 m ρ c (Proc.devRef .tc main_arg5) = m ((c : Thread nD τ).loc main_arg5) := (W2_of_ne m ρ c main_arg5 (by decide)).trans (a1_arg5 m ρ c)
theorem a2_arg6 : W2 m ρ c (Proc.devRef .tc main_arg6) = m ((c : Thread nD τ).loc main_arg6) := (W2_of_ne m ρ c main_arg6 (by decide)).trans (a1_arg6 m ρ c)
theorem a2_arg7 : W2 m ρ c (Proc.devRef .tc main_arg7) = m ((c : Thread nD τ).loc main_arg7) := (W2_of_ne m ρ c main_arg7 (by decide)).trans (a1_arg7 m ρ c)
theorem a2_arg8 : W2 m ρ c (Proc.devRef .tc main_arg8) = m ((c : Thread nD τ).loc main_arg8) := (W2_of_ne m ρ c main_arg8 (by decide)).trans (a1_arg8 m ρ c)
theorem a2_arg9 : W2 m ρ c (Proc.devRef .tc main_arg9) = m ((c : Thread nD τ).loc main_arg9) := (W2_of_ne m ρ c main_arg9 (by decide)).trans (a1_arg9 m ρ c)
theorem a2_arg10 : W2 m ρ c (Proc.devRef .tc main_arg10) = m ((c : Thread nD τ).loc main_arg10) := (W2_of_ne m ρ c main_arg10 (by decide)).trans (a1_arg10 m ρ c)
theorem a2_arg11 : W2 m ρ c (Proc.devRef .tc main_arg11) = m ((c : Thread nD τ).loc main_arg11) := (W2_of_ne m ρ c main_arg11 (by decide)).trans (a1_arg11 m ρ c)
theorem a2_arg12 : W2 m ρ c (Proc.devRef .tc main_arg12) = m ((c : Thread nD τ).loc main_arg12) := (W2_of_ne m ρ c main_arg12 (by decide)).trans (a1_arg12 m ρ c)

/-! ## Before the second launch -/

theorem a3_v30 : W3 m ρ c (Proc.devRef .tc main_v30) = agg m c (h1 m c) := by
  refine (s1_v30 (W2 m ρ c)).trans ?_
  rw [a2_v20, a2_v1, a2_v3]; rfl
theorem a3_v31 : W3 m ρ c (Proc.devRef .tc main_v31) = shapeCast S1x128 (m ((c : Thread nD τ).loc main_arg7)) shapeCasts_S128_S1x128 := by
  refine (s1_v31 (W2 m ρ c)).trans ?_
  rw [a2_arg7]
theorem a3_v20 : W3 m ρ c (Proc.devRef .tc main_v20) = h1 m c := (s1_keep_main_v20 (W2 m ρ c)).trans (a2_v20 m ρ c)
theorem a3_v8 : W3 m ρ c (Proc.devRef .tc main_v8) = cntCol m c := (s1_keep_main_v8 (W2 m ρ c)).trans (a2_v8 m ρ c)
theorem a3_v1 : W3 m ρ c (Proc.devRef .tc main_v1) = src m c := (s1_keep_main_v1 (W2 m ρ c)).trans (a2_v1 m ρ c)
theorem a3_v3 : W3 m ρ c (Proc.devRef .tc main_v3) = dst m c := (s1_keep_main_v3 (W2 m ρ c)).trans (a2_v3 m ρ c)
theorem a3_arg5 : W3 m ρ c (Proc.devRef .tc main_arg5) = m ((c : Thread nD τ).loc main_arg5) := (s1_keep_main_arg5 (W2 m ρ c)).trans (a2_arg5 m ρ c)
theorem a3_arg6 : W3 m ρ c (Proc.devRef .tc main_arg6) = m ((c : Thread nD τ).loc main_arg6) := (s1_keep_main_arg6 (W2 m ρ c)).trans (a2_arg6 m ρ c)
theorem a3_arg8 : W3 m ρ c (Proc.devRef .tc main_arg8) = m ((c : Thread nD τ).loc main_arg8) := (s1_keep_main_arg8 (W2 m ρ c)).trans (a2_arg8 m ρ c)
theorem a3_arg9 : W3 m ρ c (Proc.devRef .tc main_arg9) = m ((c : Thread nD τ).loc main_arg9) := (s1_keep_main_arg9 (W2 m ρ c)).trans (a2_arg9 m ρ c)
theorem a3_arg10 : W3 m ρ c (Proc.devRef .tc main_arg10) = m ((c : Thread nD τ).loc main_arg10) := (s1_keep_main_arg10 (W2 m ρ c)).trans (a2_arg10 m ρ c)
theorem a3_arg11 : W3 m ρ c (Proc.devRef .tc main_arg11) = m ((c : Thread nD τ).loc main_arg11) := (s1_keep_main_arg11 (W2 m ρ c)).trans (a2_arg11 m ρ c)
theorem a3_arg12 : W3 m ρ c (Proc.devRef .tc main_arg12) = m ((c : Thread nD τ).loc main_arg12) := (s1_keep_main_arg12 (W2 m ρ c)).trans (a2_arg12 m ρ c)

/-! ## After the second launch -/

theorem a4_v32 : W4 m ρ c (Proc.devRef .tc main_v32) = h2 m c := by
  refine (W4_arr m ρ c 6).trans ((final1 (V3 m ρ) c).trans ?_)
  unfold layer1 h2
  show reluLayer (meanOf (W3 m ρ c (Proc.devRef .tc main_v30)) (fun r => W3 m ρ c (Proc.devRef .tc main_v8) (ix2 r (0 : Fin 1))))
      (W3 m ρ c (Proc.devRef .tc main_v20)) (W3 m ρ c (Proc.devRef .tc main_arg5)) (rowOf (W3 m ρ c (Proc.devRef .tc main_v31)))
      (W3 m ρ c (Proc.devRef .tc main_arg6)) = _
  rw [a3_v30, a3_v8, a3_v20, a3_arg5, a3_v31, a3_arg6]
theorem a4_v8 : W4 m ρ c (Proc.devRef .tc main_v8) = cntCol m c :=
  ((W4_arr m ρ c 2).trans (((dat1 (V3 m ρ) c).arrAt_in 2 rfl _).trans (A_eq1 (V3 m ρ) c 2))).trans (a3_v8 m ρ c)
theorem a4_v1 : W4 m ρ c (Proc.devRef .tc main_v1) = src m c := (W4_of_ne m ρ c main_v1 (by decide)).trans (a3_v1 m ρ c)
theorem a4_v3 : W4 m ρ c (Proc.devRef .tc main_v3) = dst m c := (W4_of_ne m ρ c main_v3 (by decide)).trans (a3_v3 m ρ c)
theorem a4_arg8 : W4 m ρ c (Proc.devRef .tc main_arg8) = m ((c : Thread nD τ).loc main_arg8) := (W4_of_ne m ρ c main_arg8 (by decide)).trans (a3_arg8 m ρ c)
theorem a4_arg9 : W4 m ρ c (Proc.devRef .tc main_arg9) = m ((c : Thread nD τ).loc main_arg9) := (W4_of_ne m ρ c main_arg9 (by decide)).trans (a3_arg9 m ρ c)
theorem a4_arg10 : W4 m ρ c (Proc.devRef .tc main_arg10) = m ((c : Thread nD τ).loc main_arg10) := (W4_of_ne m ρ c main_arg10 (by decide)).trans (a3_arg10 m ρ c)
theorem a4_arg11 : W4 m ρ c (Proc.devRef .tc main_arg11) = m ((c : Thread nD τ).loc main_arg11) := (W4_of_ne m ρ c main_arg11 (by decide)).trans (a3_arg11 m ρ c)
theorem a4_arg12 : W4 m ρ c (Proc.devRef .tc main_arg12) = m ((c : Thread nD τ).loc main_arg12) := (W4_of_ne m ρ c main_arg12 (by decide)).trans (a3_arg12 m ρ c)

/-! ## Before the third launch -/

theorem a5_v42 : W5 m ρ c (Proc.devRef .tc main_v42) = agg m c (h2 m c) := by
  refine (s2_v42 (W4 m ρ c)).trans ?_
  rw [a4_v32, a4_v1, a4_v3]; rfl
theorem a5_v43 : W5 m ρ c (Proc.devRef .tc main_v43) = shapeCast S1x128 (m ((c : Thread nD τ).loc main_arg10)) shapeCasts_S128_S1x128 := by
  refine (s2_v43 (W4 m ρ c)).trans ?_
  rw [a4_arg10]
theorem a5_v44 : W5 m ρ c (Proc.devRef .tc main_v44) = shapeCast S1x1 (m ((c : Thread nD τ).loc main_arg12)) shapeCasts_S1_S1x1 := by
  refine (s2_v44 (W4 m ρ c)).trans ?_
  rw [a4_arg12]
theorem a5_v32 : W5 m ρ c (Proc.devRef .tc main_v32) = h2 m c := (s2_keep_main_v32 (W4 m ρ c)).trans (a4_v32 m ρ c)
theorem a5_v8 : W5 m ρ c (Proc.devRef .tc main_v8) = cntCol m c := (s2_keep_main_v8 (W4 m ρ c)).trans (a4_v8 m ρ c)
theorem a5_arg8 : W5 m ρ c (Proc.devRef .tc main_arg8) = m ((c : Thread nD τ).loc main_arg8) := (s2_keep_main_arg8 (W4 m ρ c)).trans (a4_arg8 m ρ c)
theorem a5_arg9 : W5 m ρ c (Proc.devRef .tc main_arg9) = m ((c : Thread nD τ).loc main_arg9) := (s2_keep_main_arg9 (W4 m ρ c)).trans (a4_arg9 m ρ c)
theorem a5_arg11 : W5 m ρ c (Proc.devRef .tc main_arg11) = m ((c : Thread nD τ).loc main_arg11) := (s2_keep_main_arg11 (W4 m ρ c)).trans (a4_arg11 m ρ c)

/-! ## After the third launch, and the result -/

theorem a6_v45 : W6 m ρ c (Proc.devRef .tc main_v45) = outCol m c := by
  refine (W6_arr m ρ c 8).trans ((final2 (V5 m ρ) c).trans ?_)
  unfold score2 outCol
  show scoreCol (meanOf (W5 m ρ c (Proc.devRef .tc main_v42)) (fun r => W5 m ρ c (Proc.devRef .tc main_v8) (ix2 r (0 : Fin 1))))
      (W5 m ρ c (Proc.devRef .tc main_v32)) (W5 m ρ c (Proc.devRef .tc main_arg8)) (rowOf (W5 m ρ c (Proc.devRef .tc main_v43)))
      (W5 m ρ c (Proc.devRef .tc main_arg9)) (W5 m ρ c (Proc.devRef .tc main_arg11))
      (W5 m ρ c (Proc.devRef .tc main_v44) (ix2 (0 : Fin 1) (0 : Fin 1))) = _
  rw [a5_v42, a5_v8, a5_v32, a5_arg8, a5_v43, a5_arg9, a5_arg11, a5_v44]

/-- The result buffer's contents at the last boundary. -/
theorem result : W7 m ρ c (Proc.devRef .tc main_v46) = out m c := by
  refine (s3_v46 (W6 m ρ c)).trans ?_
  rw [a6_v45]; rfl

end Cert.KernelIdeal.Fold

end
-- ==== Proof.RefStages.lean ====
/-
  The reference program's result, read one host operation at a time.

  Each of the three layers divides the scattered sums of neighbour features by the larger of the scattered count and 1,
  multiplies the mean and the layer's own input by two weight matrices, adds the two products and then the bias; the
  first two layers take the larger of that and zero; the last is followed by a product with a one-column matrix, a
  one-entry bias and a change of shape from a column to a vector. Read at an index, every stage is the matching entry
  of the mean, of the pre-activation, of the rectified layer or of the classifier score. The scattered sums and counts
  are kept as they are: nothing here looks inside a gather or a scatter.
-/
import proofs.«165756_j85126251807613_2_alg».proof.Defs
import proofs.«165756_j85126251807613_2_alg».proof.Proof.Gen.ReferenceIdeal.Run
import proofs.«165756_j85126251807613_2_alg».proof.Proof.Gen.ReferenceIdeal.Read
import proofs.«165756_j85126251807613_2_alg».proof.Proof.LibSageLayers
import proofs.«165756_j85126251807613_2_alg».proof.Proof.LibMeanLayers

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Sage Cert.MeanLayers
open scoped BigOperators

/-- The first layer's mean entry: the summed neighbour features at (p, k) divided by the larger of the count of row p and 1. -/
theorem mean0_at (x0 : (⟨S50000x128, .f32⟩ : BufTy).Contents (Elt Ideal)) (x1 : (⟨S2x800000, .i32⟩ : BufTy).Contents (Elt Ideal)) (p : Fin 50000) (k : Fin 128) :
    val_main_v22 (F := Ideal) x0 x1 (ix2 p k)
      = meanOf (val_main_v13 (F := Ideal) x0 x1) (fun r => val_main_v17 (F := Ideal) x1 (ix1 r)) (ix2 p k) := by
  rw [val_main_v22_apply, val_main_v21_apply, val_main_v20_apply, val_main_v19_apply, val_main_v18_apply,
    val_main_cst_3_apply, meanOf_apply]
  have e : idx_main_v20 (idx_main_v21 (ix2 p k)) = ix1 p := funext fun a => by
    match a with
    | ⟨0, _⟩ => rfl
  rw [e]
  rfl

/-- The first layer's pre-activation at (p, q). -/
theorem pre0_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (p : Fin 50000) (q : Fin 128) :
    val_main_v28 (F := Ideal) x0 x1 x2 x3 x4 (ix2 p q)
      = preAt (meanOf (val_main_v13 (F := Ideal) x0 x1) (fun r => val_main_v17 (F := Ideal) x1 (ix1 r))) x0 x2 x4 x3 p q := by
  rw [val_main_v28_apply, val_main_v25_apply, val_main_v23_apply, val_main_v24_apply,
    val_main_v27_apply, val_main_v26_apply]
  have el : ∀ k : Fin 128, lidx_main_v23 (ix2 p q) k = ix2 p k := fun k => funext fun a => by
    match a with
    | ⟨0, _⟩ => rfl
    | ⟨1, _⟩ => rfl
  have er : ∀ k : Fin 128, ridx_main_v23 (ix2 p q) k = ix2 k q := fun k => funext fun a => by
    match a with
    | ⟨0, _⟩ => rfl
    | ⟨1, _⟩ => rfl
  have el' : ∀ k : Fin 128, lidx_main_v24 (ix2 p q) k = ix2 p k := fun k => funext fun a => by
    match a with
    | ⟨0, _⟩ => rfl
    | ⟨1, _⟩ => rfl
  have er' : ∀ k : Fin 128, ridx_main_v24 (ix2 p q) k = ix2 k q := fun k => funext fun a => by
    match a with
    | ⟨0, _⟩ => rfl
    | ⟨1, _⟩ => rfl
  have eb : idx_main_v26 (idx_main_v27 (ix2 p q)) = ix1 q := funext fun a => by
    match a with
    | ⟨0, _⟩ => rfl
  have h1 : ∀ k : Fin 128, (val_main_v22 (F := Ideal) x0 x1) (lidx_main_v23 (ix2 p q) k) * x2 (ridx_main_v23 (ix2 p q) k)
      = meanOf (val_main_v13 (F := Ideal) x0 x1) (fun r => val_main_v17 (F := Ideal) x1 (ix1 r)) (ix2 p k) * x2 (ix2 k q) := fun k => by
    rw [el k, er k, mean0_at x0 x1 p k]
  have h2 : ∀ k : Fin 128, x0 (lidx_main_v24 (ix2 p q) k) * x3 (ridx_main_v24 (ix2 p q) k)
      = x0 (ix2 p k) * x3 (ix2 k q) := fun k => by
    rw [el' k, er' k]
  rw [eb, Finset.sum_congr rfl fun k _ => h1 k, Finset.sum_congr rfl fun k _ => h2 k]
  rfl

/-- The first layer of the reference is the rectified layer of the mean of the scattered sums of the node features. -/
theorem layer0 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) :
    val_main_v29 (F := Ideal) x0 x1 x2 x3 x4
      = reluLayer (meanOf (val_main_v13 (F := Ideal) x0 x1) (fun r => val_main_v17 (F := Ideal) x1 (ix1 r))) x0 x2 x4 x3 := by
  funext i
  obtain ⟨p, q, rfl⟩ : ∃ (p : Fin 50000) (q : Fin 128), i = ix2 p q := ⟨i 0, i 1, eq_ix2 i⟩
  rw [val_main_v29_apply, pre0_at x0 x1 x2 x3 x4 p q, val_main_call0_v0_apply, val_main_call0_cst_apply]
  rfl

/-- The second layer's mean entry. -/
theorem mean1_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (p : Fin 50000) (k : Fin 128) :
    val_main_v48 (F := Ideal) x0 x1 x2 x3 x4 (ix2 p k)
      = meanOf (val_main_v39 (F := Ideal) x0 x1 x2 x3 x4) (fun r => val_main_v43 (F := Ideal) x1 (ix1 r)) (ix2 p k) := by
  rw [val_main_v48_apply, val_main_v47_apply, val_main_v46_apply, val_main_v45_apply, val_main_v44_apply,
    val_main_cst_9_apply, meanOf_apply]
  have e : idx_main_v46 (idx_main_v47 (ix2 p k)) = ix1 p := funext fun a => by
    match a with
    | ⟨0, _⟩ => rfl
  rw [e]
  rfl

/-- The second layer's pre-activation at (p, q). -/
theorem pre1_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (p : Fin 50000) (q : Fin 128) :
    val_main_v54 (F := Ideal) x0 x1 x2 x3 x4 x5 x6 x7 (ix2 p q)
      = preAt (meanOf (val_main_v39 (F := Ideal) x0 x1 x2 x3 x4) (fun r => val_main_v43 (F := Ideal) x1 (ix1 r))) (val_main_v29 (F := Ideal) x0 x1 x2 x3 x4) x5 x7 x6 p q := by
  rw [val_main_v54_apply, val_main_v51_apply, val_main_v49_apply, val_main_v50_apply,
    val_main_v53_apply, val_main_v52_apply]
  have el : ∀ k : Fin 128, lidx_main_v49 (ix2 p q) k = ix2 p k := fun k => funext fun a => by
    match a with
    | ⟨0, _⟩ => rfl
    | ⟨1, _⟩ => rfl
  have er : ∀ k : Fin 128, ridx_main_v49 (ix2 p q) k = ix2 k q := fun k => funext fun a => by
    match a with
    | ⟨0, _⟩ => rfl
    | ⟨1, _⟩ => rfl
  have el' : ∀ k : Fin 128, lidx_main_v50 (ix2 p q) k = ix2 p k := fun k => funext fun a => by
    match a with
    | ⟨0, _⟩ => rfl
    | ⟨1, _⟩ => rfl
  have er' : ∀ k : Fin 128, ridx_main_v50 (ix2 p q) k = ix2 k q := fun k => funext fun a => by
    match a with
    | ⟨0, _⟩ => rfl
    | ⟨1, _⟩ => rfl
  have eb : idx_main_v52 (idx_main_v53 (ix2 p q)) = ix1 q := funext fun a => by
    match a with
    | ⟨0, _⟩ => rfl
  have h1 : ∀ k : Fin 128, (val_main_v48 (F := Ideal) x0 x1 x2 x3 x4) (lidx_main_v49 (ix2 p q) k) * x5 (ridx_main_v49 (ix2 p q) k)
      = meanOf (val_main_v39 (F := Ideal) x0 x1 x2 x3 x4) (fun r => val_main_v43 (F := Ideal) x1 (ix1 r)) (ix2 p k) * x5 (ix2 k q) := fun k => by
    rw [el k, er k, mean1_at x0 x1 x2 x3 x4 p k]
  have h2 : ∀ k : Fin 128, (val_main_v29 (F := Ideal) x0 x1 x2 x3 x4) (lidx_main_v50 (ix2 p q) k) * x6 (ridx_main_v50 (ix2 p q) k)
      = (val_main_v29 (F := Ideal) x0 x1 x2 x3 x4) (ix2 p k) * x6 (ix2 k q) := fun k => by
    rw [el' k, er' k]
  rw [eb, Finset.sum_congr rfl fun k _ => h1 k, Finset.sum_congr rfl fun k _ => h2 k]
  rfl

/-- The second layer of the reference is the rectified layer of the mean of the scattered sums of the first layer's result. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v55 (F := Ideal) x0 x1 x2 x3 x4 x5 x6 x7
      = reluLayer (meanOf (val_main_v39 (F := Ideal) x0 x1 x2 x3 x4) (fun r => val_main_v43 (F := Ideal) x1 (ix1 r))) (val_main_v29 (F := Ideal) x0 x1 x2 x3 x4) x5 x7 x6 := by
  funext i
  obtain ⟨p, q, rfl⟩ : ∃ (p : Fin 50000) (q : Fin 128), i = ix2 p q := ⟨i 0, i 1, eq_ix2 i⟩
  rw [val_main_v55_apply, pre1_at x0 x1 x2 x3 x4 x5 x6 x7 p q, val_main_call1_v0_apply, val_main_call1_cst_apply]
  rfl

/-- The third layer's mean entry. -/
theorem mean2_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (p : Fin 50000) (k : Fin 128) :
    val_main_v74 (F := Ideal) x0 x1 x2 x3 x4 x5 x6 x7 (ix2 p k)
      = meanOf (val_main_v65 (F := Ideal) x0 x1 x2 x3 x4 x5 x6 x7) (fun r => val_main_v69 (F := Ideal) x1 (ix1 r)) (ix2 p k) := by
  rw [val_main_v74_apply, val_main_v73_apply, val_main_v72_apply, val_main_v71_apply, val_main_v70_apply,
    val_main_cst_15_apply, meanOf_apply]
  have e : idx_main_v72 (idx_main_v73 (ix2 p k)) = ix1 p := funext fun a => by
    match a with
    | ⟨0, _⟩ => rfl
  rw [e]
  rfl

/-- The third layer's pre-activation at (p, q) (this layer is not rectified). -/
theorem pre2_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (p : Fin 50000) (q : Fin 128) :
    val_main_v80 (F := Ideal) x0 x1 x2 x3 x4 x5 x6 x7 x8 x9 x10 (ix2 p q)
      = preAt (meanOf (val_main_v65 (F := Ideal) x0 x1 x2 x3 x4 x5 x6 x7) (fun r => val_main_v69 (F := Ideal) x1 (ix1 r))) (val_main_v55 (F := Ideal) x0 x1 x2 x3 x4 x5 x6 x7) x8 x10 x9 p q := by
  rw [val_main_v80_apply, val_main_v77_apply, val_main_v75_apply, val_main_v76_apply,
    val_main_v79_apply, val_main_v78_apply]
  have el : ∀ k : Fin 128, lidx_main_v75 (ix2 p q) k = ix2 p k := fun k => funext fun a => by
    match a with
    | ⟨0, _⟩ => rfl
    | ⟨1, _⟩ => rfl
  have er : ∀ k : Fin 128, ridx_main_v75 (ix2 p q) k = ix2 k q := fun k => funext fun a => by
    match a with
    | ⟨0, _⟩ => rfl
    | ⟨1, _⟩ => rfl
  have el' : ∀ k : Fin 128, lidx_main_v76 (ix2 p q) k = ix2 p k := fun k => funext fun a => by
    match a with
    | ⟨0, _⟩ => rfl
    | ⟨1, _⟩ => rfl
  have er' : ∀ k : Fin 128, ridx_main_v76 (ix2 p q) k = ix2 k q := fun k => funext fun a => by
    match a with
    | ⟨0, _⟩ => rfl
    | ⟨1, _⟩ => rfl
  have eb : idx_main_v78 (idx_main_v79 (ix2 p q)) = ix1 q := funext fun a => by
    match a with
    | ⟨0, _⟩ => rfl
  have h1 : ∀ k : Fin 128, (val_main_v74 (F := Ideal) x0 x1 x2 x3 x4 x5 x6 x7) (lidx_main_v75 (ix2 p q) k) * x8 (ridx_main_v75 (ix2 p q) k)
      = meanOf (val_main_v65 (F := Ideal) x0 x1 x2 x3 x4 x5 x6 x7) (fun r => val_main_v69 (F := Ideal) x1 (ix1 r)) (ix2 p k) * x8 (ix2 k q) := fun k => by
    rw [el k, er k, mean2_at x0 x1 x2 x3 x4 x5 x6 x7 p k]
  have h2 : ∀ k : Fin 128, (val_main_v55 (F := Ideal) x0 x1 x2 x3 x4 x5 x6 x7) (lidx_main_v76 (ix2 p q) k) * x9 (ridx_main_v76 (ix2 p q) k)
      = (val_main_v55 (F := Ideal) x0 x1 x2 x3 x4 x5 x6 x7) (ix2 p k) * x9 (ix2 k q) := fun k => by
    rw [el' k, er' k]
  rw [eb, Finset.sum_congr rfl fun k _ => h1 k, Finset.sum_congr rfl fun k _ => h2 k]
  rfl

/-- The result of the reference: the classifier score of every row of the third layer's pre-activations. -/
theorem tail (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal)) :
    val_main_v85 (F := Ideal) x0 x1 x2 x3 x4 x5 x6 x7 x8 x9 x10 x11 x12
      = scoreVec (meanOf (val_main_v65 (F := Ideal) x0 x1 x2 x3 x4 x5 x6 x7) (fun r => val_main_v69 (F := Ideal) x1 (ix1 r))) (val_main_v55 (F := Ideal) x0 x1 x2 x3 x4 x5 x6 x7) x8 x10 x9 x11 (x12 (ix1 (0 : Fin 1))) := by
  funext i
  obtain ⟨p, rfl⟩ : ∃ p : Fin 50000, i = ix1 p := ⟨i 0, eq_ix1 i⟩
  rw [val_main_v85_apply]
  have e85 : idx_main_v85 (ix1 p) = ix2 p (0 : Fin 1) := funext fun a => Fin.ext (by
    match a with
    | ⟨0, _⟩ => exact Nat.div_one _
    | ⟨1, _⟩ => rfl)
  rw [e85, val_main_v84_apply, val_main_v81_apply, val_main_v83_apply, val_main_v82_apply]
  have el : ∀ k : Fin 128, lidx_main_v81 (ix2 p (0 : Fin 1)) k = ix2 p k := fun k => funext fun a => by
    match a with
    | ⟨0, _⟩ => rfl
    | ⟨1, _⟩ => rfl
  have er : ∀ k : Fin 128, ridx_main_v81 (ix2 p (0 : Fin 1)) k = ix2 k (0 : Fin 1) := fun k => funext fun a => by
    match a with
    | ⟨0, _⟩ => rfl
    | ⟨1, _⟩ => rfl
  have eb : idx_main_v82 (idx_main_v83 (ix2 p (0 : Fin 1))) = ix1 (0 : Fin 1) := funext fun a => by
    match a with
    | ⟨0, _⟩ => rfl
  have h1 : ∀ k : Fin 128, (val_main_v80 (F := Ideal) x0 x1 x2 x3 x4 x5 x6 x7 x8 x9 x10) (lidx_main_v81 (ix2 p (0 : Fin 1)) k) * x11 (ridx_main_v81 (ix2 p (0 : Fin 1)) k)
      = preAt (meanOf (val_main_v65 (F := Ideal) x0 x1 x2 x3 x4 x5 x6 x7) (fun r => val_main_v69 (F := Ideal) x1 (ix1 r))) (val_main_v55 (F := Ideal) x0 x1 x2 x3 x4 x5 x6 x7) x8 x10 x9 p k * x11 (ix2 k (0 : Fin 1)) := fun k => by
    rw [el k, er k, pre2_at x0 x1 x2 x3 x4 x5 x6 x7 x8 x9 x10 p k]
  rw [eb, Finset.sum_congr rfl fun k _ => h1 k]
  rfl

/-! ## The aggregation is one function of the features

The three layers gather rows by the same table of source nodes and scatter them by the same table of target nodes; the
three count vectors scatter the same ones by the same table. The stages differ only in the numbering of their constants. -/

/-- The second layer's counts are the first layer's. -/
theorem count1_eq (x1 : (⟨S2x800000, .i32⟩ : BufTy).Contents (Elt Ideal)) : val_main_v43 (F := Ideal) x1 = val_main_v17 (F := Ideal) x1 := rfl

/-- The third layer's counts are the first layer's. -/
theorem count2_eq (x1 : (⟨S2x800000, .i32⟩ : BufTy).Contents (Elt Ideal)) : val_main_v69 (F := Ideal) x1 = val_main_v17 (F := Ideal) x1 := rfl

/-- The summed neighbour features of a feature matrix h: the rows of h gathered by the table of source nodes and added
    into zeros at the rows the table of target nodes names. -/
def agg (h : Mat 50000 128) (x1 : (⟨S2x800000, .i32⟩ : BufTy).Contents (Elt Ideal)) : Mat 50000 128 :=
  Host.scatterAdd (F := Ideal) (φ := .f32) scatter_S50000x128_S800000x1_S800000x128_1_0_0_1 (val_main_v11 (F := Ideal)) (val_main_v12 (F := Ideal) x1)
    (Host.gather gather_S50000x128_S800000x1_S800000x128_1_0_n_n_0_1_1128 h (val_main_v9 (F := Ideal) x1))

/-- The first layer aggregates the node features. -/
theorem sum0_eq (x0 : (⟨S50000x128, .f32⟩ : BufTy).Contents (Elt Ideal)) (x1 : (⟨S2x800000, .i32⟩ : BufTy).Contents (Elt Ideal)) : val_main_v13 (F := Ideal) x0 x1 = agg x0 x1 := rfl

/-- The second layer aggregates the first layer's result. -/
theorem sum1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) : val_main_v39 (F := Ideal) x0 x1 x2 x3 x4 = agg (val_main_v29 (F := Ideal) x0 x1 x2 x3 x4) x1 := rfl

/-- The third layer aggregates the second layer's result. -/
theorem sum2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) : val_main_v65 (F := Ideal) x0 x1 x2 x3 x4 x5 x6 x7 = agg (val_main_v55 (F := Ideal) x0 x1 x2 x3 x4 x5 x6 x7) x1 := rfl

/-! ## The three layers over the one aggregation and the one count vector -/

/-- The first layer, with the aggregation named. -/
theorem layer0_agg (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) :
    val_main_v29 (F := Ideal) x0 x1 x2 x3 x4 = reluLayer (meanOf (agg x0 x1) (fun r => val_main_v17 (F := Ideal) x1 (ix1 r))) x0 x2 x4 x3 := by
  rw [layer0, sum0_eq]

/-- The second layer, with the aggregation named and the first layer's counts. -/
theorem layer1_agg (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v55 (F := Ideal) x0 x1 x2 x3 x4 x5 x6 x7
      = reluLayer (meanOf (agg (val_main_v29 (F := Ideal) x0 x1 x2 x3 x4) x1) (fun r => val_main_v17 (F := Ideal) x1 (ix1 r))) (val_main_v29 (F := Ideal) x0 x1 x2 x3 x4) x5 x7 x6 := by
  rw [layer1, sum1_eq, count1_eq]

/-- The result, with the aggregation named and the first layer's counts. -/
theorem tail_agg (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal)) :
    val_main_v85 (F := Ideal) x0 x1 x2 x3 x4 x5 x6 x7 x8 x9 x10 x11 x12
      = scoreVec (meanOf (agg (val_main_v55 (F := Ideal) x0 x1 x2 x3 x4 x5 x6 x7) x1) (fun r => val_main_v17 (F := Ideal) x1 (ix1 r))) (val_main_v55 (F := Ideal) x0 x1 x2 x3 x4 x5 x6 x7) x8 x10 x9 x11 (x12 (ix1 (0 : Fin 1))) := by
  rw [tail, sum2_eq, count2_eq]

/-! ## The whole result as one function of the thirteen argument arrays -/

/-- The number of edges that end at each node. -/
def cnt (x1 : (⟨S2x800000, .i32⟩ : BufTy).Contents (Elt Ideal)) : Fin 50000 → EReal := fun r => val_main_v17 (F := Ideal) x1 (ix1 r)

/-- The first hidden layer: the rectified layer of the mean of the aggregated node features. -/
def h1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) : Mat 50000 128 :=
  reluLayer (meanOf (agg x0 x1) (cnt x1)) x0 x2 x4 x3

/-- The second hidden layer: the rectified layer of the mean of the aggregated first hidden layer. -/
def h2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) : Mat 50000 128 :=
  reluLayer (meanOf (agg (h1 x0 x1 x2 x3 x4) x1) (cnt x1)) (h1 x0 x1 x2 x3 x4) x5 x7 x6

/-- The result: the classifier score of each row of the third layer's pre-activations over the second hidden layer. -/
def out (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal)) : Vc 50000 :=
  scoreVec (meanOf (agg (h2 x0 x1 x2 x3 x4 x5 x6 x7) x1) (cnt x1)) (h2 x0 x1 x2 x3 x4 x5 x6 x7) x8 x10 x9 x11 (x12 (ix1 (0 : Fin 1)))

/-- The first rectified stage is the first hidden layer. -/
theorem h1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) : val_main_v29 (F := Ideal) x0 x1 x2 x3 x4 = h1 x0 x1 x2 x3 x4 :=
  layer0_agg x0 x1 x2 x3 x4

/-- The second rectified stage is the second hidden layer. -/
theorem h2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) : val_main_v55 (F := Ideal) x0 x1 x2 x3 x4 x5 x6 x7 = h2 x0 x1 x2 x3 x4 x5 x6 x7 := by
  rw [layer1_agg, h1_eq]
  rfl

/-- The last stage is the result function. -/
theorem out_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal)) : val_main_v85 (F := Ideal) x0 x1 x2 x3 x4 x5 x6 x7 x8 x9 x10 x11 x12 = out x0 x1 x2 x3 x4 x5 x6 x7 x8 x9 x10 x11 x12 := by
  rw [tail_agg, h2_eq]
  rfl

/-- The buffer the run of the reference ends with holds the result function of the argument buffers. -/
theorem result_eq (m : (ℓ : Loc nD τ sig) → Buf (Elt Ideal) ℓ) (c : Dev nD) :
    Cert.ReferenceIdeal.Value.res_main_v85 (F := Ideal) m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [val_main_v85_eq, out_eq]

end Cert.ReferenceIdeal.RefValue

end
-- ==== Proof.Bridge.lean ====
/-
  The two programs' host values side by side.

  The kernel program and the reference aggregate neighbour features with the same operations: the rows of a feature
  matrix gathered by the table of source nodes and added into zeros at the rows the table of target nodes names, the two
  tables being the two rows of the one edge table; and both count, for each node, the edges that end at it by adding
  ones into zeros at the rows the target table names. The kernel program keeps the counts as a column. The statements
  here say that the kernel program's values are the reference's.
-/
import proofs.«165756_j85126251807613_2_alg».proof.Proof.KernelStretches
import proofs.«165756_j85126251807613_2_alg».proof.Proof.RefStages
import Idealize.ShloMosaic.Lib.Pipeline.Value
import Idealize.ShloMosaic.Lib.ValueIdx

noncomputable section

namespace Cert.Bridge

open Idealize.ShloMosaic Idealize.ShloMosaic.ValueIdx Idealize.SL.Sem

/-- The kernel program's aggregation over its two edge tables is the reference's aggregation over the edge table. -/
theorem agg_bridge (h : Cert.Sage.Mat 50000 128) (e : (⟨Cert.KernelIdeal.S2x800000, .i32⟩ : BufTy).Contents (Elt Ideal)) :
    Cert.KernelIdeal.Stretches.aggOf h (Cert.KernelIdeal.Stretches.srcOf e) (Cert.KernelIdeal.Stretches.dstOf e)
      = Cert.ReferenceIdeal.RefValue.agg h e := rfl

/-- The kernel program's column of edge counts, read at row r, is the reference's count of row r. -/
theorem deg_bridge (e : (⟨Cert.KernelIdeal.S2x800000, .i32⟩ : BufTy).Contents (Elt Ideal)) (r : Fin 50000) :
    Cert.KernelIdeal.Stretches.degCol (Cert.KernelIdeal.Stretches.dstOf e) (ix2 r (0 : Fin 1))
      = Cert.ReferenceIdeal.RefValue.cnt e r := by
  unfold Cert.KernelIdeal.Stretches.degCol
  refine (broadcastInDim_apply _ Cert.KernelIdeal.Gen.bcast_S50000_S50000x1_0 _ (ix2 r (0 : Fin 1)) (ix1 r) (fun a => ?_)).trans ?_
  · match a with
    | ⟨0, _⟩ => show r.val = if (50000 : Nat) = 1 then 0 else r.val; rw [if_neg (by decide)]
  · rfl

end Cert.Bridge

end
-- ==== Proof.LibColCast.lean ====
/-
  GENERAL LEMMA: a one-column matrix [a, 1] cast to a vector [a] reads, at i, the column's entry of row i — the host
  reshape that drops a trailing unit axis. Any extent, any entry type; nothing here mentions a program.
-/
import Idealize.ShloMosaic.Lib.Pipeline.Value
import Idealize.ShloMosaic.Lib.ValueLayout
import Idealize.ShloMosaic.Lib.ValueIdx

namespace Cert.LibColCast

open Idealize.ShloMosaic Idealize.ShloMosaic.ValueIdx

variable {α : Type}

/-- Row-major, entry (i, 0) of an [a, 1] matrix and entry i of an [a] vector sit at the same position i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColCast
-- ==== Proof.SidesAgree.lean ====
/-
  The kernel program's result and the reference's are one function of the argument arrays.

  Layer by layer: the aggregation and the counts of the two programs are the same values; a bias cast to one row has
  that bias as its row; so the first layers agree, hence the second (they aggregate equal matrices), hence the score
  columns. The kernel program returns its score column cast to a vector, the reference the vector of the same
  scores; the classifier's bias read from a one-by-one block is the bias.
-/
import proofs.«165756_j85126251807613_2_alg».proof.Proof.KernelFold
import proofs.«165756_j85126251807613_2_alg».proof.Proof.RefStages
import proofs.«165756_j85126251807613_2_alg».proof.Proof.Bridge
import proofs.«165756_j85126251807613_2_alg».proof.Proof.LibColCast

noncomputable section

namespace Cert.SidesAgree

open Cert.KernelIdeal Idealize.ShloMosaic Idealize.ShloMosaic.TcCoe Idealize.ShloMosaic.ValueIdx Idealize.SL.Sem
open Cert.Sage Cert.MeanLayers Cert.LibRowBias

variable (m : (ℓ : Loc nD τ sig) → Buf (Elt Ideal) ℓ) (c : Dev nD)

/-- The kernel program's aggregation is the reference's. -/
theorem agg_eq (h : S50000x128.Idx → EReal) :
    Cert.KernelIdeal.Fold.agg m c h = Cert.ReferenceIdeal.RefValue.agg h (m ((c : Thread nD τ).loc main_arg1)) :=
  Cert.Bridge.agg_bridge h (m ((c : Thread nD τ).loc main_arg1))

/-- The kernel program's counts, read off their column, are the reference's. -/
theorem cnt_eq : (fun r : Fin 50000 => Cert.KernelIdeal.Fold.cntCol m c (ix2 r (0 : Fin 1)))
    = Cert.ReferenceIdeal.RefValue.cnt (m ((c : Thread nD τ).loc main_arg1)) :=
  funext fun r => Cert.Bridge.deg_bridge (m ((c : Thread nD τ).loc main_arg1)) r

/-- The first layers agree. -/
theorem h1_eq : Cert.KernelIdeal.Fold.h1 m c
    = Cert.ReferenceIdeal.RefValue.h1 (m ((c : Thread nD τ).loc main_arg0)) (m ((c : Thread nD τ).loc main_arg1)) (m ((c : Thread nD τ).loc main_arg2)) (m ((c : Thread nD τ).loc main_arg3)) (m ((c : Thread nD τ).loc main_arg4)) := by
  unfold Cert.KernelIdeal.Fold.h1 Cert.ReferenceIdeal.RefValue.h1
  rw [agg_eq, cnt_eq, rowOf_shapeCast]

/-- The second layers agree. -/
theorem h2_eq : Cert.KernelIdeal.Fold.h2 m c
    = Cert.ReferenceIdeal.RefValue.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Cert.KernelIdeal.Fold.h2 Cert.ReferenceIdeal.RefValue.h2
  rw [h1_eq, agg_eq, cnt_eq, rowOf_shapeCast]

/-- The results agree. -/
theorem out_eq : Cert.KernelIdeal.Fold.out m c
    = Cert.ReferenceIdeal.RefValue.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨p, rfl⟩ : ∃ p : Fin 50000, i = ix1 p := ⟨i 0, eq_ix1 i⟩
  unfold Cert.KernelIdeal.Fold.out
  rw [Cert.LibColCast.shapeCast_a1_a_apply]
  unfold Cert.KernelIdeal.Fold.outCol Cert.ReferenceIdeal.RefValue.out
  rw [scoreCol_apply, scoreVec_apply, h2_eq, agg_eq, cnt_eq, rowOf_shapeCast, shapeCast_a_1a_apply]

end Cert.SidesAgree

end
-- ==== Proof.lean ====
/-
  The claim: the printed kernel program and its exact reading run and leave their arguments as launched; the
  reference program does too; and at the exact reading the kernel program and the reference end with the same result.

  Both programs compute, for a graph of 50000 nodes and 800000 edges and node features x, three mean-aggregating
  layers and a one-column classifier: with agg h the sum over the edges into a node of the source rows of h and cnt
  the in-degree counts,
      h1 = max (mean (agg x) cnt · Wn0 + x · Wr0 + b0, 0),   h2 = max (mean (agg h1) cnt · Wn1 + h1 · Wr1 + b1, 0),
      result p = (mean (agg h2) cnt · Wn2 + h2 · Wr2 + b2)(p, ·) · w_cls + b_cls,
  where mean s cnt (p, k) = s(p, k) / max (cnt p) 1. The kernel program computes each layer in a launch that walks
  ten blocks of 5000 rows, with the division inside the launch and products into zero accumulators of operands
  narrowed to the half-width format; the reference computes the same sums over whole matrices. On exact values
  narrowing is the identity, a product into zero is the plain sum, a layer's row depends only on that row of its
  inputs, and the two programs add the same three summands in the same order: no entry needs to be finite, and the
  precondition is not used.
-/
import proofs.«165756_j85126251807613_2_alg».proof.Defs
import proofs.«165756_j85126251807613_2_alg».proof.Proof.Gen.Kernel
import proofs.«165756_j85126251807613_2_alg».proof.Proof.Gen.Kernel.Frame
import proofs.«165756_j85126251807613_2_alg».proof.Proof.Gen.KernelIdeal
import proofs.«165756_j85126251807613_2_alg».proof.Proof.Gen.KernelIdeal.Frame
import proofs.«165756_j85126251807613_2_alg».proof.Proof.Gen.ReferenceIdeal
import proofs.«165756_j85126251807613_2_alg».proof.Proof.Gen.ReferenceIdeal.Run
import proofs.«165756_j85126251807613_2_alg».proof.Proof.Gen.Pre_finite_inputs
import proofs.«165756_j85126251807613_2_alg».proof.Proof.KernelRun
import proofs.«165756_j85126251807613_2_alg».proof.Proof.KernelFold
import proofs.«165756_j85126251807613_2_alg».proof.Proof.RefStages
import proofs.«165756_j85126251807613_2_alg».proof.Proof.SidesAgree
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Gen.frame m ρ

/-- Its exact reading runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The exact reading rewrote no operation. -/
theorem preserves : Cert.preserves_Kernel_KernelIdeal := trivial

/-- From memories that agree on the arguments both programs end with the three-layer network's scores of the
    kernel program's argument arrays. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.result m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.RefValue.result_eq, e0, e1, e2, e3, e4, e5, e6, e7, e8, e9, e10, e11, e12]
    exact (Cert.SidesAgree.out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
